-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S1x8192, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_call4_cst : Ref sig .tc := ⟨.hbm, 52, rfl⟩
abbrev main_call4_v0 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KIBase.lean ====
/-
  The frame of the batch-hard triplet kernel, first part: what every grid point's run is stated over.

  @main is nine host operations (the cast of the features, their squared norms, four reshapes), the kernel region over the
  8 × 8 grid of 1024 × 1024 tiles, and four more host operations (the sum of the rows' losses and its division by 8192).
  Here: the buffers' contents when the region is entered (`V`: the host operations before it applied to the launch
  memory); each input window's block at a grid point read off those contents (`iblk`), which is what that window's
  staging buffer holds at every point whether the pipeline fetched it there or kept it; the two conditions of the body —
  "first column block" (the running maximum and minimum are reset) and "last column block" (the row block's losses are
  written) — decided over the 64 points; and where the output window is idle.
-/
import proofs.«100007_j26680336843539_2_alg».proof.Proof.Gen.KernelIdeal.Launch
import proofs.«100007_j26680336843539_2_alg».proof.Proof.Gen.KernelIdeal.Skeleton
import proofs.«100007_j26680336843539_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the nine host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or kept from the point before
    (one statement per input window: the block's shape is read off the window's literal number). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block": the running maximum and minimum are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last column block": the row block's losses are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt_in : ∀ (w : Fin 7), w.val < 6 → ∀ i : grid0.Coords, cfg0.idle w i = false := by
  intro w hw i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Away from the last column block nothing is stored into the output window and it is not written back. -/
theorem idleAt_6 : ∀ t : Fin cfg0.N, ¬cond0_1 (grid0.coords t) → cfg0.idle 6 (grid0.coords t) = true := by decide +kernel
theorem noFlush_6 : ∀ t : Fin cfg0.N, ¬cond0_1 (grid0.coords t) → (cfg0.win 6).flush t = false := by decide +kernel
theorem liveAt_6 : ∀ t : Fin cfg0.N, cond0_1 (grid0.coords t) → cfg0.idle 6 (grid0.coords t) = false := by decide +kernel

/-! ## The staging and scratch memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The two scratch operands: the running maximum and the running minimum, kept from one point to the next. -/
abbrev scM0 : Memref sig .tc .vmem S1024x1 .f32 := Memref.whole cc0_scratch0
abbrev scM1 : Memref sig .tc .vmem S1024x1 .f32 := Memref.whole cc0_scratch1
/-- Views through which contents are stated. -/
abbrev VO6 : View sig .tc .vmem S1024x1 .f32 := (Memref.whole cc0_stg6_0 : Memref sig .tc .vmem S1024x1 .f32).view
abbrev VS0 : View sig .tc .vmem S1024x1 .f32 := scM0.view
abbrev VS1 : View sig .tc .vmem S1024x1 .f32 := scM1.view

/-- The region's invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; rfl

end Cert.KernelIdeal.Hand

end
-- ==== Proof.KIRunA.lean ====
/-
  The kernel body at a point of the FIRST column block (and not the last): the running maximum is reset to −∞ and the
  running minimum to +∞, then this block's row maxima and minima are folded in; nothing is stored into the output window.
  The body's run on whole staging buffers, the pieces each scratch ends with found by the run itself.
-/
import proofs.«100007_j26680336843539_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) :
    Σ' (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunB.lean ====
/-
  The kernel body at a point that is neither the first nor the last column block: this block's row maxima and minima are
  folded into the running maximum and minimum the point before left; nothing is stored into the output window.
-/
import proofs.«100007_j26680336843539_2_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    Σ' (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunC.lean ====
/-
  The kernel body at a point of the LAST column block (and not the first): the block's row maxima and minima are folded in,
  and the row block's losses — from the row's squared norm and the finished maximum and minimum — are stored into the
  output window.
-/
import proofs.«100007_j26680336843539_2_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Hand

end
-- ==== Proof.KIData.lean ====
/-
  The frame of the batch-hard triplet kernel, second part: the proof data of its one pipeline and the body obligation.

  The two scratch operands carry a running maximum and a running minimum along a row block's eight column blocks; the
  output window is stored only at the last of them. What the output's staging buffer and the two scratches hold after
  each of the 64 points is defined by recursion on the point (`outsAt`): at a first column block from nothing, elsewhere
  from what the point before left in the scratches. The region's invariant carries the scratches at those contents, and
  the body obligation is the case's run at the point's buffers. Windows 0 and 1 stage the same array (the features, once
  as the row block and once as the column block): each holds HALF of it.
-/
import proofs.«100007_j26680336843539_2_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing consults: the output window's staging buffer at a point that stores nothing into it. -/
def junk6 : Vec F S1024x1 .f32 := VO6.read (Elt F) VO6.junk

theorem coverA0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).1 S1024x1.size (by sl_kernel_rfl) y
def outA0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) : Vec F S1024x1 .f32 :=
  VS0.read (Elt F) (VS0.writes (Elt F) VS0.junk (kernelRun_A c i arg2 harg2 arg3 harg3 arg4 harg4 arg5 harg5 arg6 harg6 arg7 harg7 arg8 harg8 arg9 harg9 arg10 harg10 hc0 hc1 x0 x1 x2 x3 x4 x5).1)

theorem coverA1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).2.1 S1024x1.size (by sl_kernel_rfl) y
def outA1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) : Vec F S1024x1 .f32 :=
  VS1.read (Elt F) (VS1.writes (Elt F) VS1.junk (kernelRun_A c i arg2 harg2 arg3 harg3 arg4 harg4 arg5 harg5 arg6 harg6 arg7 harg7 arg8 harg8 arg9 harg9 arg10 harg10 hc0 hc1 x0 x1 x2 x3 x4 x5).2.1)

theorem coverB0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y
def outB0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 arg10 harg10 hc0 hc1 x0 x1 x2 x3 x4 x5 xs0 xs1).1)

theorem coverB1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y
def outB1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS1.read (Elt F) (VS1.writes (Elt F) VS1.junk (kernelRun_B c i arg2 harg2 arg3 harg3 arg4 harg4 arg5 harg5 arg6 harg6 arg7 harg7 arg8 harg8 arg9 harg9 arg10 harg10 hc0 hc1 x0 x1 x2 x3 x4 x5 xs0 xs1).2.1)

theorem coverC6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y
def outC6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VO6.read (Elt F) (VO6.writes (Elt F) VO6.junk (kernelRun_C c i arg2 harg2 arg3 harg3 arg4 harg4 arg5 harg5 arg6 harg6 arg7 harg7 arg8 harg8 arg9 harg9 arg10 harg10 hc0 hc1 x0 x1 x2 x3 x4 x5 xs0 xs1).1)

theorem coverC0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y
def outC0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 arg10 harg10 hc0 hc1 x0 x1 x2 x3 x4 x5 xs0 xs1).2.1)

theorem coverC1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y
def outC1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS1.read (Elt F) (VS1.writes (Elt F) VS1.junk (kernelRun_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output and the scratches hold after each point -/

/-- After the body at position `n`: the output window's staging buffer, the running maximum, the running minimum. -/
def outsAt (c : Dev nD) : (n : ℕ) → n < cfg0.N → Vec F S1024x1 .f32 × Vec F S1024x1 .f32 × Vec F S1024x1 .f32
  | 0, hn => (junk6, outA0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM0 (Memref.isWhole_whole _) scM1 (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), outA1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM0 (Memref.isWhole_whole _) scM1 (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      (junk6, outA0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), outA1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (outC6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outC0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outC1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (junk6, outB0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outB1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (junk6, outA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcond0_0 t).mpr h0) (fun h => h1 ((hcond0_1 t).mp h)) (iblk m c 0 t) (iblk m c 1 t) (iblk m c 2 t) (iblk m c 3 t) (iblk m c 4 t) (iblk m c 5 t), outA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (junk6, outB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC6 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outC0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outC1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scratch at anything; afterwards the two scratches at what the point before
    left in them; and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block and the output's at `outsAt`;
    the invariant `PhiS`; nothing owed; the shared feature array held half by its row-block window and half by its
    column-block window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.KernelIdeal.Hand

end
-- ==== Proof.KIBody.lean ====
/-
  The frame of the batch-hard triplet kernel, third part: the body obligation at a generic grid point.

  The point's position modulo 8 says which case it is in — the first column block, the last, or one between — and the
  case's run applies: the invariant hands the body the two scratches (at anything at the first column block, at what the
  point before left elsewhere) and takes them back at this point's contents; the input windows' buffers hold their blocks
  and are handed back as found; the output window's buffer is handed back untouched except at the last column block.
-/
import proofs.«100007_j26680336843539_2_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [liveAt_in 0 (by decide) (grid0.coords t)], after0]
    rw [show (dats m 0 c).leavesExact 1 t = owns (c : Thread nD τ) (ms1 t) fullShare ((dats m 0 c).after 1 t) from by
      unfold Dat.leavesExact; rw [liveAt_in 1 (by decide) (grid0.coords t)], after1]
    rw [show (dats m 0 c).leavesExact 2 t = owns (c : Thread nD τ) (ms2 t) fullShare ((dats m 0 c).after 2 t) from by
      unfold Dat.leavesExact; rw [liveAt_in 2 (by decide) (grid0.coords t)], after2]
    rw [show (dats m 0 c).leavesExact 3 t = owns (c : Thread nD τ) (ms3 t) fullShare ((dats m 0 c).after 3 t) from by
      unfold Dat.leavesExact; rw [liveAt_in 3 (by decide) (grid0.coords t)], after3]
    rw [show (dats m 0 c).leavesExact 4 t = owns (c : Thread nD τ) (ms4 t) fullShare ((dats m 0 c).after 4 t) from by
      unfold Dat.leavesExact; rw [liveAt_in 4 (by decide) (grid0.coords t)], after4]
    rw [show (dats m 0 c).leavesExact 5 t = owns (c : Thread nD τ) (ms5 t) fullShare ((dats m 0 c).after 5 t) from by
      unfold Dat.leavesExact; rw [liveAt_in 5 (by decide) (grid0.coords t)], after5]
    rw [Dat.leavesExact_idle (dats m 0 c) 6 t (idleAt_6 t (fun h => h1 ((hcond0_1 t).mp h))) (noFlush_6 t (fun h => h1 ((hcond0_1 t).mp h)))]
    rw [outsAt_A m c t h0 h1]
    unfold outA0 outA1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA0 c _ _ _ _ _ _ _ _ _ _ _ _ _ _ _ _ _ _ _ _ _ _ _ _ _ _ _)
          · unfold owns; iexists _; isplitr
            swap; · iexact HS1
            ipureintro; exact View.read_writes_of_cover _ _ _ _ _ (coverA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA0 c _ _ _ _ _ _ _ _ _ _ _ _ _ _ _ _ _ _ _ _ _ _ _ _ _ _ _)
          · unfold owns; iexists _; isplitr
            swap; · iexact HS1
            ipureintro; exact View.read_writes_of_cover _ _ _ _ _ (coverA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [PhiS_castSucc m c t, PhiS_pos m c _ _ hz]
      rw [show (dats m 0 c).leavesExact 0 t = owns (c : Thread nD τ) (ms0 t) fullShare ((dats m 0 c).after 0 t) from by
        unfold Dat.leavesExact; rw [liveAt_in 0 (by decide) (grid0.coords t)], after0]
      rw [show (dats m 0 c).leavesExact 1 t = owns (c : Thread nD τ) (ms1 t) fullShare ((dats m 0 c).after 1 t) from by
        unfold Dat.leavesExact; rw [liveAt_in 1 (by decide) (grid0.coords t)], after1]
      rw [show (dats m 0 c).leavesExact 2 t = owns (c : Thread nD τ) (ms2 t) fullShare ((dats m 0 c).after 2 t) from by
        unfold Dat.leavesExact; rw [liveAt_in 2 (by decide) (grid0.coords t)], after2]
      rw [show (dats m 0 c).leavesExact 3 t = owns (c : Thread nD τ) (ms3 t) fullShare ((dats m 0 c).after 3 t) from by
        unfold Dat.leavesExact; rw [liveAt_in 3 (by decide) (grid0.coords t)], after3]
      rw [show (dats m 0 c).leavesExact 4 t = owns (c : Thread nD τ) (ms4 t) fullShare ((dats m 0 c).after 4 t) from by
        unfold Dat.leavesExact; rw [liveAt_in 4 (by decide) (grid0.coords t)], after4]
      rw [show (dats m 0 c).leavesExact 5 t = owns (c : Thread nD τ) (ms5 t) fullShare ((dats m 0 c).after 5 t) from by
        unfold Dat.leavesExact; rw [liveAt_in 5 (by decide) (grid0.coords t)], after5]
      rw [show (dats m 0 c).leavesExact 6 t = owns (c : Thread nD τ) (ms6 t) fullShare ((dats m 0 c).after 6 t) from by
        unfold Dat.leavesExact; rw [liveAt_6 t ((hcond0_1 t).mpr h1)], after6]
      rw [outsAt_C m c t h0 h1]
      unfold outC6 outC0 outC1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverC0 c _ _ _ _ _ _ _ _ _ _ _ _ _ _ _ _ _ _ _ _ _ _ _ _ _ _ _ _ _)
          · unfold owns; iexists _; isplitr
            swap; · iexact HS1
            ipureintro; exact View.read_writes_of_cover _ _ _ _ _ (coverC1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC6 c _ _ _ _ _ _ _ _ _ _ _ _ _ _ _ _ _ _ _ _ _ _ _ _ _ _ _ _ _)
    · rw [PhiS_castSucc m c t, PhiS_pos m c _ _ hz]
      rw [show (dats m 0 c).leavesExact 0 t = owns (c : Thread nD τ) (ms0 t) fullShare ((dats m 0 c).after 0 t) from by
        unfold Dat.leavesExact; rw [liveAt_in 0 (by decide) (grid0.coords t)], after0]
      rw [show (dats m 0 c).leavesExact 1 t = owns (c : Thread nD τ) (ms1 t) fullShare ((dats m 0 c).after 1 t) from by
        unfold Dat.leavesExact; rw [liveAt_in 1 (by decide) (grid0.coords t)], after1]
      rw [show (dats m 0 c).leavesExact 2 t = owns (c : Thread nD τ) (ms2 t) fullShare ((dats m 0 c).after 2 t) from by
        unfold Dat.leavesExact; rw [liveAt_in 2 (by decide) (grid0.coords t)], after2]
      rw [show (dats m 0 c).leavesExact 3 t = owns (c : Thread nD τ) (ms3 t) fullShare ((dats m 0 c).after 3 t) from by
        unfold Dat.leavesExact; rw [liveAt_in 3 (by decide) (grid0.coords t)], after3]
      rw [show (dats m 0 c).leavesExact 4 t = owns (c : Thread nD τ) (ms4 t) fullShare ((dats m 0 c).after 4 t) from by
        unfold Dat.leavesExact; rw [liveAt_in 4 (by decide) (grid0.coords t)], after4]
      rw [show (dats m 0 c).leavesExact 5 t = owns (c : Thread nD τ) (ms5 t) fullShare ((dats m 0 c).after 5 t) from by
        unfold Dat.leavesExact; rw [liveAt_in 5 (by decide) (grid0.coords t)], after5]
      rw [Dat.leavesExact_idle (dats m 0 c) 6 t (idleAt_6 t (fun h => h1 ((hcond0_1 t).mp h))) (noFlush_6 t (fun h => h1 ((hcond0_1 t).mp h)))]
      rw [outsAt_B m c t h0 h1]
      unfold outB0 outB1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB0 c _ _ _ _ _ _ _ _ _ _ _ _ _ _ _ _ _ _ _ _ _ _ _ _ _ _ _ _ _)
          · unfold owns; iexists _; isplitr
            swap; · iexact HS1
            ipureintro; exact View.read_writes_of_cover _ _ _ _ _ (coverB1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratches back at contents no longer named. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KIArrays.lean ====
/-
  The frame of the batch-hard triplet kernel: the windows' arrays as whole buffers and as the pipeline holds them.

  Windows 0 and 1 stage ONE array, the features cast to bf16, once by row block and once by column block; both only
  read it. The launch splits that array's full share into the two halves the windows hold, and joins them when the
  region is left.
-/
import proofs.«100007_j26680336843539_2_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img_arr : (Finset.univ.image (Pipeline.arrRef spec0) : Finset (Ref sig .tc)) = [main_v0, main_v4, main_v5, main_v6, main_v7, main_v8].toFinset := by decide

/-- The distinct buffers behind the windows' arrays, one by one. -/
theorem arrBufs_eq (c : Dev nD) (Fv : (b : Ref sig .tc) → Buf (Elt F) ((c : Thread nD τ).loc b)) :
    (Pipeline.arrBufs spec0 c Fv : sProp 𝕄)
      = iprop((((c : Thread nD τ).loc main_v0) ↦{fullShare} Fv main_v0) ∗ (((c : Thread nD τ).loc main_v4) ↦{fullShare} Fv main_v4) ∗ (((c : Thread nD τ).loc main_v5) ↦{fullShare} Fv main_v5) ∗ (((c : Thread nD τ).loc main_v6) ↦{fullShare} Fv main_v6) ∗ (((c : Thread nD τ).loc main_v7) ↦{fullShare} Fv main_v7) ∗ (((c : Thread nD τ).loc main_v8) ↦{fullShare} Fv main_v8)) := by
  unfold Pipeline.arrBufs
  exact bigSep_eq_bigSepL_of_eq [main_v0, main_v4, main_v5, main_v6, main_v7, main_v8] img_arr (by decide) _

/-- The pipeline's arrays, window by window: the feature array at its two halves, the others whole. -/
theorem arrays_eq (c : Dev nD) (Fv : (b : Ref sig .tc) → Buf (Elt F) ((c : Thread nD τ).loc b)) :
    ((dats m 0 c).arrays (fun w => Fv (Pipeline.arrRef spec0 w)) : sProp 𝕄)
      = iprop((((c : Thread nD τ).loc main_v0) ↦{fullShare.left} Fv main_v0) ∗ (((c : Thread nD τ).loc main_v0) ↦{fullShare.right} Fv main_v0) ∗ (((c : Thread nD τ).loc main_v4) ↦{fullShare} Fv main_v4) ∗ (((c : Thread nD τ).loc main_v5) ↦{fullShare} Fv main_v5) ∗ (((c : Thread nD τ).loc main_v6) ↦{fullShare} Fv main_v6) ∗ (((c : Thread nD τ).loc main_v7) ↦{fullShare} Fv main_v7) ∗ (((c : Thread nD τ).loc main_v8) ↦{fullShare} Fv main_v8)) := by
  unfold Dat.arrays
  rw [bigSep_W0]
  have hset : ∀ w : Fin 7, (cfg0.win w).arr.view.set = Finset.univ := fun w => (arr_whole0 w).set_eq_univ
  have q0 : (dats m 0 c).share 0 = fullShare.left := by unfold Dat.share; dsimp only [dats]; rfl
  have q1 : (dats m 0 c).share 1 = fullShare.right := by unfold Dat.share; dsimp only [dats]; rfl
  have q2 : (dats m 0 c).share 2 = fullShare := by unfold Dat.share; dsimp only [dats]; rfl
  have q3 : (dats m 0 c).share 3 = fullShare := by unfold Dat.share; dsimp only [dats]; rfl
  have q4 : (dats m 0 c).share 4 = fullShare := by unfold Dat.share; dsimp only [dats]; rfl
  have q5 : (dats m 0 c).share 5 = fullShare := by unfold Dat.share; dsimp only [dats]; rfl
  have q6 : (dats m 0 c).share 6 = fullShare := by unfold Dat.share; rfl
  rw [q0, q1, q2, q3, q4, q5, q6]
  simp only [hset]
  simp only [View.set_whole]
  try rfl

/-- Whole buffers split among the windows. -/
theorem arr_split (c : Dev nD) (Fv : (b : Ref sig .tc) → Buf (Elt F) ((c : Thread nD τ).loc b)) :
    (Pipeline.arrBufs spec0 c Fv : sProp 𝕄) ⊢ (dats m 0 c).arrays (fun w => Fv (Pipeline.arrRef spec0 w)) := by
  rw [arrBufs_eq, arrays_eq]
  iintro ⟨H0, H4, H5, H6, H7, H8⟩
  icases (pointsTo_share (PosShare.mem_left_op_right fullShare)).1 $$ H0 with ⟨Ha, Hb⟩
  isplitl [Ha]; · iexact Ha
  isplitl [Hb]; · iexact Hb
  isplitl [H4]; · iexact H4
  isplitl [H5]; · iexact H5
  isplitl [H6]; · iexact H6
  isplitl [H7]; · iexact H7
  iexact H8

/-- The windows' shares joined into whole buffers. -/
theorem arr_merge (c : Dev nD) (Fv : (b : Ref sig .tc) → Buf (Elt F) ((c : Thread nD τ).loc b)) :
    ((dats m 0 c).arrays (fun w => Fv (Pipeline.arrRef spec0 w)) : sProp 𝕄) ⊢ Pipeline.arrBufs spec0 c Fv := by
  rw [arrBufs_eq, arrays_eq]
  iintro ⟨Ha, Hb, H4, H5, H6, H7, H8⟩
  isplitl [Ha Hb]
  · iapply (pointsTo_share (PosShare.mem_left_op_right fullShare)).2
    isplitl [Ha]; · iexact Ha
    iexact Hb
  isplitl [H4]; · iexact H4
  isplitl [H5]; · iexact H5
  isplitl [H6]; · iexact H6
  isplitl [H7]; · iexact H7
  iexact H8

end Cert.KernelIdeal.Hand

end
-- ==== Proof.KITail.lean ====
/-
  The frame of the batch-hard triplet kernel: the buffers when the region is left, and the four host operations after it.

  When the region is left every input array is as the region found it and the output array is what the pipeline wrote
  back. The two halves of the feature array are joined, the four operations — the sum of the rows' losses and its division
  by the number of rows — run on the core's whole unscoped buffers, and the arrays are split among the windows again.
-/
import proofs.«100007_j26680336843539_2_alg».proof.Proof.KIArrays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left, and after @main -/

/-- The output array as the pipeline's write-backs leave it. -/
def outArr (c : Dev nD) : (main_v8 : Ref sig .tc).ty.Contents (Elt F) := (dats m 0 c).arrAt 6 cfg0.N

/-- Core `c`'s buffer contents when the region is left: the entry contents, the output array at what was written back. -/
abbrev W1 (c : Dev nD) : Valuation τ sig (Elt F) := StableHlo.after [StableHlo.nullary main_v8 (outArr m c)] (V0 m c)
/-- And after the four host operations that follow the region. -/
abbrev Vf (c : Dev nD) : Valuation τ sig (Elt F) := StableHlo.after (List.flatten [hostOps1]) (W1 m c)
abbrev W1r (c : Dev nD) (b : Ref sig .tc) : Buf (Elt F) ((c : Thread nD τ).loc b) := W1 m c (Proc.devRef .tc b)
abbrev Vfr (c : Dev nD) (b : Ref sig .tc) : Buf (Elt F) ((c : Thread nD τ).loc b) := Vf m c (Proc.devRef .tc b)

/-- Every window but the last is an input, and its array is not the output array. -/
theorem win_in : ∀ w : Fin cfg0.W, w ≠ 6 → (cfg0.win w).isOut = false ∧ Pipeline.arrRef spec0 w ≠ main_v8 := by decide
theorem arr_not_tail : ∀ w : Fin cfg0.W, Pipeline.arrRef spec0 w ∉ [main_cst_0, main_v9, main_cst_1, main_v10] := by decide

/-- Every window's array when the region is left: an input's as it was found, the output's as written back. -/
theorem arrAt_exit (c : Dev nD) (w : Fin cfg0.W) : (dats m 0 c).arrAt w cfg0.N = W1r m c (Pipeline.arrRef spec0 w) := by
  by_cases hw : w = 6
  · subst hw
    show outArr m c = (StableHlo.nullary main_v8 (outArr m c)).result (V0 m c) (Proc.devRef .tc main_v8)
    rw [StableHlo.nullary_result]
  · obtain ⟨hin, hne⟩ := win_in w hw
    rw [(dats m 0 c).arrAt_in w hin, A_eq]
    exact (StableHlo.nullary_result_ne _ _ _ _ hne).symm

/-- The four later operations write none of the arrays. -/
theorem Vf_arr (c : Dev nD) (w : Fin cfg0.W) : Vfr m c (Pipeline.arrRef spec0 w) = W1r m c (Pipeline.arrRef spec0 w) := by
  refine StableHlo.after_of_writes_sub (W := [main_cst_0, main_v9, main_cst_1, main_v10]) _ _ ?_ (arr_not_tail w)
  simp only [List.flatten_cons, List.flatten_nil, List.append_nil, hostOps1, List.Forall, StableHlo.nullary_writes, StableHlo.binary_writes]
  decide

/-- A buffer that is no window's array is as the region found it. -/
theorem rest_exit (c : Dev nD) : (Pipeline.unscopedRest spec0 c (V m c) : sProp 𝕄) = Pipeline.unscopedRest spec0 c (W1r m c) := by
  unfold Pipeline.unscopedRest
  refine bigSep_congr fun b hb => ?_
  have hb8 : b ≠ main_v8 := fun e => (Finset.mem_sdiff.mp hb).2 (Finset.mem_image.mpr ⟨6, Finset.mem_univ _, e.symm⟩)
  rw [show W1r m c b = V m c b from StableHlo.nullary_result_ne _ _ _ _ hb8]

theorem hostOps1_sub' : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- THE LINES AFTER THE REGION: the two halves of the feature array are joined, the four operations run on the core's
    whole unscoped buffers, and the arrays are split among the windows again. -/
theorem htail (c : Dev nD) (Q' : PUnit → sProp 𝕄) :
    iprop((iprop((dats m 0 c).arrays ((dats m 0 c).arrAt · cfg0.N) ∗ Pipeline.unscopedRest spec0 c (Vfr m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hA : (fun w => (dats m 0 c).arrAt w cfg0.N) = fun w => W1r m c (Pipeline.arrRef spec0 w) := funext (arrAt_exit m c)
  have hA' : (fun w => (dats m 0 c).arrAt w cfg0.N) = fun w => Vfr m c (Pipeline.arrRef spec0 w) :=
    funext fun w => (arrAt_exit m c w).trans (Vf_arr m c w).symm
  have hWm : iprop((dats m 0 c).arrays ((dats m 0 c).arrAt · cfg0.N) ∗ Pipeline.unscopedRest spec0 c (V m c))
      ⊢ (StableHlo.held (c.tc : Thread nD τ) (Pipeline.ucRefs τ sig) (W1 m c) : sProp 𝕄) := by
    rw [← Pipeline.unscopedBufs_held (Ix := Unit) (Name := ℕ) (U := UR sig nD τ) (Lvl := ℕ) c (W1 m c),
      Pipeline.unscopedBufs_split₀ cfgs 0 winFacts₀0.arr_unscoped c (W1r m c), hA, rest_exit]
    exact sep_mono (arr_merge m c (W1r m c)) .rfl
  have hWs : (StableHlo.held (c.tc : Thread nD τ) (Pipeline.ucRefs τ sig) (Vf m c) : sProp 𝕄)
      ⊢ iprop((dats m 0 c).arrays ((dats m 0 c).arrAt · cfg0.N) ∗ Pipeline.unscopedRest spec0 c (Vfr m c)) := by
    rw [← Pipeline.unscopedBufs_held (Ix := Unit) (Name := ℕ) (U := UR sig nD τ) (Lvl := ℕ) c (Vf m c),
      Pipeline.unscopedBufs_split₀ cfgs 0 winFacts₀0.arr_unscoped c (Vfr m c), hA']
    exact sep_mono (arr_split m c (Vfr m c)) .rfl
  rw [← List.append_nil ([hostOps1].map StableHlo.seq)]
  refine (sep_mono .rfl (sep_mono .rfl hWm)).trans ?_
  iintro ⟨Hk, Hb⟩
  iapply (Pipeline.wp_seqs_then (fun q => (cfgs q).toPCfg (Val := Elt F)) defs₀ Variants.none c (Pipeline.ucRefs τ sig) [] [hostOps1] hostOps1_sub' hostOps1_fresh' (W1 m c)) $$ Hb
  iintro Hb
  rw [Pipeline.chain_nil, wp_pure]
  imodintro
  iapply Hk
  icases Hb with ⟨-, H⟩
  iapply hWs
  iexact H

end Cert.KernelIdeal.Hand

end
-- ==== Proof.KILaunch.lean ====
/-
  The frame of the batch-hard triplet kernel: the launch and the run of @main.

  The launch hands the pipeline its windows' arrays — the feature array split between windows 0 and 1 —, the region's
  invariant takes the two scratch buffers, and the four host operations after the region run as the continuation. The
  run's post names each window's array at what the pipeline's write-backs left and every other unscoped buffer at what
  the later operations leave.
-/
import proofs.«100007_j26680336843539_2_alg».proof.Proof.KITail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates without a fault; at the end each window's array is at what the
    pipeline's write-backs left, and every other unscoped buffer at what the four later operations leave. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ (∀ b ∈ Pipeline.restRefs sig spec0, r.2.mem ((c.tc : Thread nD τ).loc b) = Vfr m c b)) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arr_split m c (V m c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vfr m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Vfr m c b)
    (hY := fun c s' => by
      iintro ⟨-, HU, HSI⟩
      unfold Pipeline.unscopedRest
      imodintro
      iapply (pointsTo_read_all (Pipeline.restRefs sig spec0) (fun b => (c.tc : Thread nD τ).loc b) (Vfr m c) s')
      isplitl [HU] <;> iassumption)
    (hQ := fun s h c => ⟨(h c).1, (h c).2.2⟩)

/-! ## Read at the arguments and at the result -/

/-- No operation of @main writes the feature argument: it ends as it was launched. -/
theorem Vfr_arg0 (c : Dev nD) : Vfr m c main_arg0 = m ((c : Thread nD τ).loc main_arg0) := by
  show StableHlo.after (List.flatten [hostOps1]) (StableHlo.after [StableHlo.nullary main_v8 (outArr m c)]
    (StableHlo.after (List.flatten [hostOps0]) (fun b => m (c, b)))) (Proc.devRef .tc main_arg0) = _
  simp only [hostOps0, hostOps1, List.flatten_cons, List.flatten_nil, List.append_nil]
  after_results
  try rfl
/-- Nor the label argument. -/
theorem Vfr_arg1 (c : Dev nD) : Vfr m c main_arg1 = m ((c : Thread nD τ).loc main_arg1) := by
  show StableHlo.after (List.flatten [hostOps1]) (StableHlo.after [StableHlo.nullary main_v8 (outArr m c)]
    (StableHlo.after (List.flatten [hostOps0]) (fun b => m (c, b)))) (Proc.devRef .tc main_arg1) = _
  simp only [hostOps0, hostOps1, List.flatten_cons, List.flatten_nil, List.append_nil]
  after_results
  try rfl

/-- The result: the sum of the output array's entries from zero, divided by the number of rows. -/
theorem Vfr_v10 (c : Dev nD) : Vfr m c main_v10
    = Host.divf (Host.reduceAdd (outArr m c) (constant S_ .f32 0x00000000#32) reducesTo_S8192x1_S_d0_1 h_S_) (constant S_ .f32 0x46000000#32) := by
  show StableHlo.after (List.flatten [hostOps1]) (StableHlo.after [StableHlo.nullary main_v8 (outArr m c)]
    (StableHlo.after (List.flatten [hostOps0]) (fun b => m (c, b)))) (Proc.devRef .tc main_v10) = _
  simp only [hostOps0, hostOps1, List.flatten_cons, List.flatten_nil, List.append_nil]
  after_results
  try rfl

theorem arg0_rest : main_arg0 ∈ Pipeline.restRefs sig spec0 := by decide
theorem arg1_rest : main_arg1 ∈ Pipeline.restRefs sig spec0 := by decide
theorem v10_rest : main_v10 ∈ Pipeline.restRefs sig spec0 := by decide

/-- THE FRAME, at any `F`: @main runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (Vfr_arg0 m c), ((h c).2 main_arg1 arg1_rest).trans (Vfr_arg1 m c)⟩)
    (run_main m ρ)

/-- The run with the result named: the mean of the output array as the pipeline left it; the arguments unchanged. -/
theorem run_value : θ_run defs (onTc (τ := τ) (main (F := F))) ⟨m, fun _ => 0, ρ⟩ (fun r => ∀ c : Dev nD,
      r.2.mem ((c.tc : Thread nD τ).loc main_v10)
        = Host.divf (Host.reduceAdd (outArr m c) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v10 v10_rest).trans (Vfr_v10 m c),
      ((h c).2 main_arg0 arg0_rest).trans (Vfr_arg0 m c), ((h c).2 main_arg1 arg1_rest).trans (Vfr_arg1 m c)⟩)
    (run_main m ρ)

end Cert.KernelIdeal.Hand

end
-- ==== Proof.KIPieces.lean ====
/-
  The frame of the batch-hard triplet kernel: what each case of the body leaves, as values.

  The body's stores cover the buffers they write, so what a buffer holds after the body is its last covering store's
  payload, the loads read back through the earlier stores. With x0 the row block's features, x1 the column block's,
  x2 / x3 the row and column labels, x4 / x5 the row and column squared norms:
    the running maximum becomes  fold_max (previous, or −∞ at a first column block) over this block,
    the running minimum becomes  fold_min (previous, or +∞ at a first column block) over this block,
    and at a last column block the output block is the rows' losses from the finished maximum and minimum.
-/
import proofs.«100007_j26680336843539_2_alg».proof.Proof.KIData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At a first column block the running maximum is this block's fold from −∞. -/
theorem outA0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) :
    outA0 c i arg2 harg2 arg3 harg3 arg4 harg4 arg5 harg5 arg6 harg6 arg7 harg7 arg8 harg8 arg9 harg9 arg10 harg10 hc0 hc1 x0 x1 x2 x3 x4 x5 = k0_pay8 x0 x1 x5 x2 x3 (k0_pay3 (F := F)) := by
  unfold outA0
  rw [View.read_writes_eq_canon _ _ _ (coverA0 c i arg2 harg2 arg3 harg3 arg4 harg4 arg5 harg5 arg6 harg6 arg7 harg7 arg8 harg8 arg9 harg9 arg10 harg10 hc0 hc1 x0 x1 x2 x3 x4 x5)]
  unfold kernelRun_A
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- At a first column block the running minimum is this block's fold from +∞. -/
theorem outA1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) :
    outA1 c i arg2 harg2 arg3 harg3 arg4 harg4 arg5 harg5 arg6 harg6 arg7 harg7 arg8 harg8 arg9 harg9 arg10 harg10 hc0 hc1 x0 x1 x2 x3 x4 x5 = k0_pay1 (k0_pay7 x0 x1 x5 x2 x3) (k0_pay4 (F := F)) := by
  unfold outA1
  rw [View.read_writes_eq_canon _ _ _ (coverA1 c i arg2 harg2 arg3 harg3 arg4 harg4 arg5 harg5 arg6 harg6 arg7 harg7 arg8 harg8 arg9 harg9 arg10 harg10 hc0 hc1 x0 x1 x2 x3 x4 x5)]
  unfold kernelRun_A
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- Between: this block folded into the running maximum. -/
theorem outB0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    outB0 c i arg2 harg2 arg3 harg3 arg4 harg4 arg5 harg5 arg6 harg6 arg7 harg7 arg8 harg8 arg9 harg9 arg10 harg10 hc0 hc1 x0 x1 x2 x3 x4 x5 xs0 xs1 = k0_pay8 x0 x1 x5 x2 x3 xs0 := by
  unfold outB0
  rw [View.read_writes_eq_canon _ _ _ (coverB0 c i arg2 harg2 arg3 harg3 arg4 harg4 arg5 harg5 arg6 harg6 arg7 harg7 arg8 harg8 arg9 harg9 arg10 harg10 hc0 hc1 x0 x1 x2 x3 x4 x5 xs0 xs1)]
  unfold kernelRun_B
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- Between: this block folded into the running minimum. -/
theorem outB1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    outB1 c i arg2 harg2 arg3 harg3 arg4 harg4 arg5 harg5 arg6 harg6 arg7 harg7 arg8 harg8 arg9 harg9 arg10 harg10 hc0 hc1 x0 x1 x2 x3 x4 x5 xs0 xs1 = k0_pay1 (k0_pay7 x0 x1 x5 x2 x3) xs1 := by
  unfold outB1
  rw [View.read_writes_eq_canon _ _ _ (coverB1 c i arg2 harg2 arg3 harg3 arg4 harg4 arg5 harg5 arg6 harg6 arg7 harg7 arg8 harg8 arg9 harg9 arg10 harg10 hc0 hc1 x0 x1 x2 x3 x4 x5 xs0 xs1)]
  unfold kernelRun_B
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- At a last column block the running maximum is folded as between, -/
theorem outC0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    outC0 c i arg2 harg2 arg3 harg3 arg4 harg4 arg5 harg5 arg6 harg6 arg7 harg7 arg8 harg8 arg9 harg9 arg10 harg10 hc0 hc1 x0 x1 x2 x3 x4 x5 xs0 xs1 = k0_pay8 x0 x1 x5 x2 x3 xs0 := by
  unfold outC0
  rw [View.read_writes_eq_canon _ _ _ (coverC0 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- the running minimum too, -/
theorem outC1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    outC1 c i arg2 harg2 arg3 harg3 arg4 harg4 arg5 harg5 arg6 harg6 arg7 harg7 arg8 harg8 arg9 harg9 arg10 harg10 hc0 hc1 x0 x1 x2 x3 x4 x5 xs0 xs1 = k0_pay1 (k0_pay7 x0 x1 x5 x2 x3) xs1 := by
  unfold outC1
  rw [View.read_writes_eq_canon _ _ _ (coverC1 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

/-- and the output block is the rows' losses from the finished maximum and minimum. -/
theorem outC6_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    outC6 c i arg2 harg2 arg3 harg3 arg4 harg4 arg5 harg5 arg6 harg6 arg7 harg7 arg8 harg8 arg9 harg9 arg10 harg10 hc0 hc1 x0 x1 x2 x3 x4 x5 xs0 xs1 = k0_pay2 x4 (k0_pay8 x0 x1 x5 x2 x3 xs0) (k0_pay1 (k0_pay7 x0 x1 x5 x2 x3) xs1) := by
  unfold outC6
  rw [View.read_writes_eq_canon _ _ _ (coverC6 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  try sl_unfold_words
  first
    | rw [View.canon_cons_unit_zero (S := S1024x1) hz]
    | rw [View.canon_unit_zero (S := S1024x1) hz]
  simp only [View.readAt_eq_ld, harg2.read_unread, harg3.read_unread, harg4.read_unread, harg5.read_unread, harg6.read_unread, harg7.read_unread,
    harg9.read_unread, harg10.read_unread,
    View.ld_unit_zero (S := S1024x128) hz, View.ld_unit_zero (S := S1x1024) hz, View.ld_unit_zero (S := S1024x1) hz,
    View.readCov_unit_zero (S := S1024x1) _ hz]

end Cert.KernelIdeal.Hand

end
-- ==== Proof.Spec.lean ====
/-
  The batch-hard triplet margin loss over 8192 rows of 128 features with integer labels, on the extended reals.

  For a row r:  sq r = ∑ₖ x r k · x r k  (its squared norm),  dot r c = ∑ₖ x r k · x c k,
  the distance  dist r c = √(max (sq r + sq c − 2·dot r c) 0),
  the hardest positive  hardPos r = sup over the rows c with the label of r of dist r c  (−∞ over no row),
  the hardest negative  hardNeg r = inf over the rows c with another label of dist r c  (+∞ over no row),
  the row's loss  max (hardPos r − hardNeg r + margin) 0,  and the result is the mean of the rows' losses.

  The same value can be reached with the square root, the clamp and the addition of sq r DEFERRED until after the
  selection: with  raw r c = sq c − 2·dot r c,  rawPos r = sup (same label) raw r c,  rawNeg r = inf (other label) raw r c,
  the row's loss is  max (√(max (sq r + rawPos r) 0) − √(max (sq r + rawNeg r) 0) + margin) 0,
  because  v ↦ √(max (sq r + v) 0)  is monotone on the extended reals, so it commutes with sup and inf, and the row itself
  always carries its own label, so the supremum is over a set that is not empty. The selection can also be made one block
  of 1024 columns at a time, keeping a running maximum and a running minimum.
-/
import Idealize.ShloMosaic.PureOps.Ideal
import Idealize.ShloMosaic.PureOps.Ideal.Laws

noncomputable section

namespace Cert.Spec

open Idealize.ShloMosaic

/-- The rows' features and labels. -/
abbrev Feat := Fin 8192 → Fin 128 → EReal
abbrev Lab := Fin 8192 → BitVec 32

/-- The literals: 2, the margin (the float nearest 3/10), and the number of rows 8192. -/
def two : EReal := Ideal.ofBits .f32 0x40000000#32
def margin : EReal := Ideal.ofBits .f32 0x3E99999A#32
def count : EReal := Ideal.ofBits .f32 0x46000000#32

/-- The squared norm of row `r`. -/
def sq (x : Feat) (r : Fin 8192) : EReal := ∑ k : Fin 128, x r k * x r k
/-- The inner product of rows `r` and `c`. -/
def dot (x : Feat) (r c : Fin 8192) : EReal := ∑ k : Fin 128, x r k * x c k

/-- The distance between rows `r` and `c`: the square root of the squared-norm expansion clamped at zero. -/
def dist (x : Feat) (r c : Fin 8192) : EReal := Ideal.sqrt (max (sq x r + sq x c - two * dot x r c) 0)
/-- The hardest positive of row `r`: the largest distance to a row of the same label. -/
def hardPos (x : Feat) (t : Lab) (r : Fin 8192) : EReal := Finset.univ.sup fun c => if t r = t c then dist x r c else ⊥
/-- The hardest negative of row `r`: the smallest distance to a row of another label. -/
def hardNeg (x : Feat) (t : Lab) (r : Fin 8192) : EReal := Finset.univ.inf fun c => if t r = t c then ⊤ else dist x r c
/-- The loss of row `r`. -/
def rowLoss (x : Feat) (t : Lab) (r : Fin 8192) : EReal := max (hardPos x t r - hardNeg x t r + margin) 0
/-- The mean of the rows' losses. -/
def loss (x : Feat) (t : Lab) : EReal := Ideal.div (∑ r : Fin 8192, rowLoss x t r) count

/-! ## The deferred form -/

/-- What is selected over before the row's own squared norm is added: `sq c − 2·dot r c`. -/
def raw (x : Feat) (r c : Fin 8192) : EReal := sq x c - two * dot x r c
def rawPos (x : Feat) (t : Lab) (r : Fin 8192) : EReal := Finset.univ.sup fun c => if t r = t c then raw x r c else ⊥
def rawNeg (x : Feat) (t : Lab) (r : Fin 8192) : EReal := Finset.univ.inf fun c => if t r = t c then ⊤ else raw x r c
/-- The row's loss from the deferred selections. -/
def finish (s p n : EReal) : EReal := max (Ideal.sqrt (max (s + p) 0) - Ideal.sqrt (max (s + n) 0) + margin) 0
def deferredRow (x : Feat) (t : Lab) (r : Fin 8192) : EReal := finish (sq x r) (rawPos x t r) (rawNeg x t r)

/-! ## The selection block by block -/

/-- Column `q` of column block `j`. -/
def col (j : Fin 8) (q : Fin 1024) : Fin 8192 := ⟨1024 * j.val + q.val, by omega⟩
/-- The selections within one block of 1024 columns. -/
def blkPos (x : Feat) (t : Lab) (r : Fin 8192) (j : Fin 8) : EReal :=
  Finset.univ.sup fun q : Fin 1024 => if t r = t (col j q) then raw x r (col j q) else ⊥
def blkNeg (x : Feat) (t : Lab) (r : Fin 8192) (j : Fin 8) : EReal :=
  Finset.univ.inf fun q : Fin 1024 => if t r = t (col j q) then ⊤ else raw x r (col j q)
/-- The running maximum and minimum after the first `n` column blocks. -/
def accPos (x : Feat) (t : Lab) (r : Fin 8192) : ℕ → EReal
  | 0 => ⊥
  | n + 1 => max (accPos x t r n) (if h : n < 8 then blkPos x t r ⟨n, h⟩ else ⊥)
def accNeg (x : Feat) (t : Lab) (r : Fin 8192) : ℕ → EReal
  | 0 => ⊤
  | n + 1 => min (accNeg x t r n) (if h : n < 8 then blkNeg x t r ⟨n, h⟩ else ⊤)

end Cert.Spec

end
-- ==== Proof.KernelPayBase.lean ====
/-
  The kernel's simplest stored values read at an index, at the ideal values.

  The two initial values of the running selections are the constants −∞ and +∞; the value stored at the last column block
  is the row loss computed from the row's squared norm and the two running selections. Also the two layout facts used
  later: a vector of length a viewed as an a × 1 column, and an a × 1 column repeated along b lanes.
-/
import proofs.«100007_j26680336843539_2_alg».proof.Proof.Gen.KernelIdeal.Skeleton
import proofs.«100007_j26680336843539_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelPay

open Idealize.ShloMosaic Idealize.ShloMosaic.ValueIdx Idealize.SL.Sem Cert.KernelIdeal Cert.KernelIdeal.Gen

/-- The two infinite words. -/
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay3_apply (p : Fin 1024) : k0_pay3 (F := Ideal) (ix2 p (0 : Fin 1)) = ⊥ := by
  unfold k0_pay3
  simp only [shapeCast_self]
  exact ofBits_neg_inf

theorem pay4_apply (p : Fin 1024) : k0_pay4 (F := Ideal) (ix2 p (0 : Fin 1)) = ⊤ := by
  unfold k0_pay4
  simp only [shapeCast_self]
  exact ofBits_pos_inf

theorem pay2_apply (sqr ap an : Vec Ideal S1024x1 .f32) (p : Fin 1024) :
    k0_pay2 (F := Ideal) sqr ap an (ix2 p (0 : Fin 1))
      = Spec.finish (sqr (ix2 p (0 : Fin 1))) (ap (ix2 p (0 : Fin 1))) (an (ix2 p (0 : Fin 1))) := by
  unfold k0_pay2 Spec.finish Spec.margin
  simp only [shapeCast_self]
  rw [← Ideal.ofBits_zero_f32]
  rfl

end Cert.KernelPay

end
-- ==== Proof.HostPrefix.lean ====
/-
  The arrays the host operations write before the region, read at an index, at the ideal values.

  From a core's launch memory W, with X the features (argument 0) and T the labels (argument 1): the rounded copy of
  the features is X itself (a change of format is the identity on the ideal values); the labels viewed as a column and
  as a row read T; the rows' squared norms — the host's sum along the feature axis, from the initial value 0, of the
  elementwise square — viewed as a column and as a row read  ∑ₖ X r k · X r k.
  Each fact is stated at an index built from its coordinates, then at any index whose coordinates have the given
  values, then at row (or column) 1024·i + p of a block.
-/
import proofs.«100007_j26680336843539_2_alg».proof.Proof.Gen.KernelIdeal.Launch
import proofs.«100007_j26680336843539_2_alg».proof.Proof.Spec
import proofs.«100007_j26680336843539_2_alg».proof.Proof.KernelPayBase
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.HostPrefix

open Idealize.ShloMosaic Idealize.ShloMosaic.ValueIdx Idealize.ShloMosaic.StableHlo Idealize.SL.Sem Cert.KernelIdeal Cert.KernelIdeal.Gen

/-- The rows' features and labels, read off a core's launch memory. -/
abbrev X (W : Valuation τ sig (Elt Ideal)) : Spec.Feat := fun r k => (W (Proc.devRef .tc main_arg0) : S8192x128.Idx → EReal) (ix2 r k)
abbrev T (W : Valuation τ sig (Elt Ideal)) : Spec.Lab := fun r => (W (Proc.devRef .tc main_arg1) : S8192.Idx → BitVec 32) (ix1 r)
/-- The memory at the region's entry. -/
abbrev Vp (W : Valuation τ sig (Elt Ideal)) : Valuation τ sig (Elt Ideal) := StableHlo.after (List.flatten [Gen.hostOps0]) W

/-- The host's squared norms, as a function of the features' array. -/
def hostSq (x : S8192x128.Idx → EReal) : S8192.Idx → EReal :=
  Host.reduceAdd (F := Ideal) (φ := .f32)
    (mulf (extf (F := Ideal) .f32 (truncf (F := Ideal) .bf16 x bitsLt_bf16_f32) bitsLt_bf16_f32)
          (extf (F := Ideal) .f32 (truncf (F := Ideal) .bf16 x bitsLt_bf16_f32) bitsLt_bf16_f32))
    (constant (F := Ideal) S_ .f32 0x00000000#32) reducesTo_S8192x128_S8192_d1 h_S_

/-! ## Each array as the operations' term -/

theorem v0_eq (W : Valuation τ sig (Elt Ideal)) :
    (Vp W (Proc.devRef .tc main_v0) : S8192x128.Idx → EReal)
      = truncf (F := Ideal) .bf16 (W (Proc.devRef .tc main_arg0) : S8192x128.Idx → EReal) bitsLt_bf16_f32 := by
  show StableHlo.after (hostOps0 (F := Ideal)) W (Proc.devRef .tc main_v0) = _
  dsimp only [Gen.hostOps0]
  after_results

theorem v4_eq (W : Valuation τ sig (Elt Ideal)) :
    (Vp W (Proc.devRef .tc main_v4) : S8192x1.Idx → BitVec 32)
      = shapeCast S8192x1 (W (Proc.devRef .tc main_arg1) : S8192.Idx → BitVec 32) shapeCasts_S8192_S8192x1 := by
  show StableHlo.after (hostOps0 (F := Ideal)) W (Proc.devRef .tc main_v4) = _
  after_results
  rfl

theorem v5_eq (W : Valuation τ sig (Elt Ideal)) :
    (Vp W (Proc.devRef .tc main_v5) : S1x8192.Idx → BitVec 32)
      = shapeCast S1x8192 (W (Proc.devRef .tc main_arg1) : S8192.Idx → BitVec 32) shapeCasts_S8192_S1x8192 := by
  show StableHlo.after (hostOps0 (F := Ideal)) W (Proc.devRef .tc main_v5) = _
  after_results
  rfl

theorem v6_eq (W : Valuation τ sig (Elt Ideal)) :
    (Vp W (Proc.devRef .tc main_v6) : S8192x1.Idx → EReal)
      = shapeCast S8192x1 (hostSq (W (Proc.devRef .tc main_arg0) : S8192x128.Idx → EReal)) shapeCasts_S8192_S8192x1 := by
  show StableHlo.after (hostOps0 (F := Ideal)) W (Proc.devRef .tc main_v6) = _
  after_results
  rfl

theorem v7_eq (W : Valuation τ sig (Elt Ideal)) :
    (Vp W (Proc.devRef .tc main_v7) : S1x8192.Idx → EReal)
      = shapeCast S1x8192 (hostSq (W (Proc.devRef .tc main_arg0) : S8192x128.Idx → EReal)) shapeCasts_S8192_S1x8192 := by
  show StableHlo.after (hostOps0 (F := Ideal)) W (Proc.devRef .tc main_v7) = _
  after_results
  rfl

/-! ## The host's squared norm of a row -/

theorem lift_row (hR : S8192x128.Reduces [1] S8192) (r : Fin 8192) (k : Fin 128) : hR.lift (ix1 r) k = ix2 r k := by
  funext a
  match a with
  | ⟨0, _⟩ => exact Fin.ext rfl
  | ⟨1, _⟩ => exact Fin.ext rfl

theorem hostSq_apply (x : S8192x128.Idx → EReal) (r : Fin 8192) :
    hostSq x (ix1 r) = ∑ k : Fin 128, x (ix2 r k) * x (ix2 r k) := by
  have hR : S8192x128.Reduces [1] S8192 := by decide
  unfold hostSq
  refine (Ideal.hostReduceAdd_single reducesTo_S8192x128_S8192_d1 hR _ _ (ix1 r)).trans ?_
  show Ideal.ofBits .f32 0x00000000#32 + ∑ k : Fin 128, x (hR.lift (ix1 r) k) * x (hR.lift (ix1 r) k) = _
  rw [Ideal.ofBits_zero_f32, zero_add]
  exact Finset.sum_congr rfl fun k _ => congrArg (fun i => x i * x i) (lift_row hR r k)

/-! ## Read at an index built from its coordinates -/

variable (W : Valuation τ sig (Elt Ideal))

theorem v0_apply (r : Fin 8192) (k : Fin 128) :
    (Vp W (Proc.devRef .tc main_v0) : S8192x128.Idx → EReal) (ix2 r k) = X W r k := by
  rw [v0_eq]; rfl

theorem v4_apply (r : Fin 8192) :
    (Vp W (Proc.devRef .tc main_v4) : S8192x1.Idx → BitVec 32) (ix2 r (0 : Fin 1)) = T W r := by
  rw [v4_eq]; exact Cert.KernelPay.shapeCast_a_a1_apply _ _ r 0

theorem v5_apply (r : Fin 8192) :
    (Vp W (Proc.devRef .tc main_v5) : S1x8192.Idx → BitVec 32) (ix2 (0 : Fin 1) r) = T W r := by
  rw [v5_eq]; exact shapeCast_a_1a_apply _ _ 0 r

theorem v6_apply (r : Fin 8192) :
    (Vp W (Proc.devRef .tc main_v6) : S8192x1.Idx → EReal) (ix2 r (0 : Fin 1)) = Spec.sq (X W) r := by
  rw [v6_eq]
  refine (Cert.KernelPay.shapeCast_a_a1_apply _ _ r 0).trans ?_
  exact hostSq_apply _ r

theorem v7_apply (r : Fin 8192) :
    (Vp W (Proc.devRef .tc main_v7) : S1x8192.Idx → EReal) (ix2 (0 : Fin 1) r) = Spec.sq (X W) r := by
  rw [v7_eq]
  refine (shapeCast_a_1a_apply _ _ 0 r).trans ?_
  exact hostSq_apply _ r

/-! ## Read at any index with the given coordinates -/

theorem idx_rk (j : S8192x128.Idx) (r : Fin 8192) (k : Fin 128) (h0 : (j 0).val = r.val) (h1 : (j 1).val = k.val) :
    j = ix2 r k := funext fun a => Fin.ext (by match a with | ⟨0, _⟩ => exact h0 | ⟨1, _⟩ => exact h1)
theorem idx_r0 (j : S8192x1.Idx) (r : Fin 8192) (h0 : (j 0).val = r.val) : j = ix2 r (0 : Fin 1) :=
  funext fun a => Fin.ext (by
    match a with
    | ⟨0, _⟩ => exact h0
    | ⟨1, _⟩ => have := idx2_lt1 j; show (j 1).val = 0; omega)
theorem idx_0r (j : S1x8192.Idx) (r : Fin 8192) (h1 : (j 1).val = r.val) : j = ix2 (0 : Fin 1) r :=
  funext fun a => Fin.ext (by
    match a with
    | ⟨0, _⟩ => have := idx2_lt0 j; show (j 0).val = 0; omega
    | ⟨1, _⟩ => exact h1)

theorem v0_at (j : S8192x128.Idx) (r : Fin 8192) (k : Fin 128) (h0 : (j 0).val = r.val) (h1 : (j 1).val = k.val) :
    (Vp W (Proc.devRef .tc main_v0) : S8192x128.Idx → EReal) j = X W r k := by
  rw [idx_rk j r k h0 h1]; exact v0_apply W r k
theorem v4_at (j : S8192x1.Idx) (r : Fin 8192) (h0 : (j 0).val = r.val) :
    (Vp W (Proc.devRef .tc main_v4) : S8192x1.Idx → BitVec 32) j = T W r := by
  rw [idx_r0 j r h0]; exact v4_apply W r
theorem v5_at (j : S1x8192.Idx) (r : Fin 8192) (h1 : (j 1).val = r.val) :
    (Vp W (Proc.devRef .tc main_v5) : S1x8192.Idx → BitVec 32) j = T W r := by
  rw [idx_0r j r h1]; exact v5_apply W r
theorem v6_at (j : S8192x1.Idx) (r : Fin 8192) (h0 : (j 0).val = r.val) :
    (Vp W (Proc.devRef .tc main_v6) : S8192x1.Idx → EReal) j = Spec.sq (X W) r := by
  rw [idx_r0 j r h0]; exact v6_apply W r
theorem v7_at (j : S1x8192.Idx) (r : Fin 8192) (h1 : (j 1).val = r.val) :
    (Vp W (Proc.devRef .tc main_v7) : S1x8192.Idx → EReal) j = Spec.sq (X W) r := by
  rw [idx_0r j r h1]; exact v7_apply W r

/-! ## Read at row (column) 1024·i + p of a block -/

theorem v0_blk (j : S8192x128.Idx) (i : Fin 8) (p : Fin 1024) (k : Fin 128)
    (h0 : (j 0).val = 1024 * i.val + p.val) (h1 : (j 1).val = k.val) :
    (Vp W (Proc.devRef .tc main_v0) : S8192x128.Idx → EReal) j = X W (Spec.col i p) k :=
  v0_at W j (Spec.col i p) k h0 h1
theorem v4_blk (j : S8192x1.Idx) (i : Fin 8) (p : Fin 1024) (h0 : (j 0).val = 1024 * i.val + p.val) :
    (Vp W (Proc.devRef .tc main_v4) : S8192x1.Idx → BitVec 32) j = T W (Spec.col i p) :=
  v4_at W j (Spec.col i p) h0
theorem v5_blk (j : S1x8192.Idx) (i : Fin 8) (q : Fin 1024) (h1 : (j 1).val = 1024 * i.val + q.val) :
    (Vp W (Proc.devRef .tc main_v5) : S1x8192.Idx → BitVec 32) j = T W (Spec.col i q) :=
  v5_at W j (Spec.col i q) h1
theorem v6_blk (j : S8192x1.Idx) (i : Fin 8) (p : Fin 1024) (h0 : (j 0).val = 1024 * i.val + p.val) :
    (Vp W (Proc.devRef .tc main_v6) : S8192x1.Idx → EReal) j = Spec.sq (X W) (Spec.col i p) :=
  v6_at W j (Spec.col i p) h0
theorem v7_blk (j : S1x8192.Idx) (i : Fin 8) (q : Fin 1024) (h1 : (j 1).val = 1024 * i.val + q.val) :
    (Vp W (Proc.devRef .tc main_v7) : S1x8192.Idx → EReal) j = Spec.sq (X W) (Spec.col i q) :=
  v7_at W j (Spec.col i q) h1

end Cert.HostPrefix

end
-- ==== Proof.KIValueBlk.lean ====
/-
  Each input block of the kernel at a grid point, read at an index, at the ideal values.

  Grid point t is row block t div 8 and column block t mod 8. Window 0 holds the features of row block t div 8, window 1
  those of column block t mod 8; windows 2 and 3 the labels of the row block (as a column) and of the column block (as a
  row); windows 4 and 5 their squared norms likewise. A block's coordinate in its array is the block's index times the
  block's size plus the coordinate inside the block.
-/
import proofs.«100007_j26680336843539_2_alg».proof.Proof.KIBase
import proofs.«100007_j26680336843539_2_alg».proof.Proof.HostPrefix

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The launch memory of one core. -/
abbrev Wm (c : Dev nD) : Valuation τ sig (Elt Ideal) := fun b => m (c, b)
/-- Its features and labels. -/
abbrev Xm (c : Dev nD) : Spec.Feat := HostPrefix.X (Wm m c)
abbrev Tm (c : Dev nD) : Spec.Lab := HostPrefix.T (Wm m c)

/-- The row block and the column block of a grid point. -/
def rowBlk (t : Fin cfg0.N) : Fin 8 := ⟨t.val / 8, by have := t.isLt; have hN : cfg0.N = 64 := N_0; omega⟩
def colBlk (t : Fin cfg0.N) : Fin 8 := ⟨t.val % 8, Nat.mod_lt _ (by decide)⟩

/-- The windows' block indices, decided once over the grid. -/
theorem idx_facts : ∀ t : Fin cfg0.N,
    (win0_0.index t 0 = t.val / 8 ∧ win0_0.index t 1 = 0) ∧
    (win0_1.index t 0 = t.val % 8 ∧ win0_1.index t 1 = 0) ∧
    (win0_2.index t 0 = t.val / 8 ∧ win0_2.index t 1 = 0) ∧
    (win0_3.index t 0 = 0 ∧ win0_3.index t 1 = t.val % 8) ∧
    (win0_4.index t 0 = t.val / 8 ∧ win0_4.index t 1 = 0) ∧
    (win0_5.index t 0 = 0 ∧ win0_5.index t 1 = t.val % 8) ∧
    (win0_6.index t 0 = t.val / 8 ∧ win0_6.index t 1 = 0) :=
  (by decide +kernel : ∀ t : Fin grid0.N,
    (win0_0.index t 0 = t.val / 8 ∧ win0_0.index t 1 = 0) ∧
    (win0_1.index t 0 = t.val % 8 ∧ win0_1.index t 1 = 0) ∧
    (win0_2.index t 0 = t.val / 8 ∧ win0_2.index t 1 = 0) ∧
    (win0_3.index t 0 = 0 ∧ win0_3.index t 1 = t.val % 8) ∧
    (win0_4.index t 0 = t.val / 8 ∧ win0_4.index t 1 = 0) ∧
    (win0_5.index t 0 = 0 ∧ win0_5.index t 1 = t.val % 8) ∧
    (win0_6.index t 0 = t.val / 8 ∧ win0_6.index t 1 = 0))

theorem iblk0_apply (c : Dev nD) (t : Fin cfg0.N) (p : Fin 1024) (k : Fin 128) :
    (iblk m c 0 t : Vec Ideal S1024x128 .bf16) (ix2 p k) = Xm m c (Spec.col (rowBlk t) p) k := by
  unfold iblk
  rw [View.read_apply]
  refine HostPrefix.v0_blk (Wm m c) _ (rowBlk t) p k ?_ ?_
  · show win0_0.index t 0 * 1024 + 1 * p.val = 1024 * (t.val / 8) + p.val
    rw [(idx_facts t).1.1]; omega
  · show win0_0.index t 1 * 128 + 1 * k.val = k.val
    rw [(idx_facts t).1.2]; omega

theorem iblk1_apply (c : Dev nD) (t : Fin cfg0.N) (q : Fin 1024) (k : Fin 128) :
    (iblk m c 1 t : Vec Ideal S1024x128 .bf16) (ix2 q k) = Xm m c (Spec.col (colBlk t) q) k := by
  unfold iblk
  rw [View.read_apply]
  refine HostPrefix.v0_blk (Wm m c) _ (colBlk t) q k ?_ ?_
  · show win0_1.index t 0 * 1024 + 1 * q.val = 1024 * (t.val % 8) + q.val
    rw [(idx_facts t).2.1.1]; omega
  · show win0_1.index t 1 * 128 + 1 * k.val = k.val
    rw [(idx_facts t).2.1.2]; omega

theorem iblk2_apply (c : Dev nD) (t : Fin cfg0.N) (p : Fin 1024) :
    (iblk m c 2 t : Vec Ideal S1024x1 .i32) (ix2 p (0 : Fin 1)) = Tm m c (Spec.col (rowBlk t) p) := by
  unfold iblk
  rw [View.read_apply]
  refine HostPrefix.v4_blk (Wm m c) _ (rowBlk t) p ?_
  show win0_2.index t 0 * 1024 + 1 * p.val = 1024 * (t.val / 8) + p.val
  rw [(idx_facts t).2.2.1.1]; omega

theorem iblk3_apply (c : Dev nD) (t : Fin cfg0.N) (q : Fin 1024) :
    (iblk m c 3 t : Vec Ideal S1x1024 .i32) (ix2 (0 : Fin 1) q) = Tm m c (Spec.col (colBlk t) q) := by
  unfold iblk
  rw [View.read_apply]
  refine HostPrefix.v5_blk (Wm m c) _ (colBlk t) q ?_
  show win0_3.index t 1 * 1024 + 1 * q.val = 1024 * (t.val % 8) + q.val
  rw [(idx_facts t).2.2.2.1.2]; omega

theorem iblk4_apply (c : Dev nD) (t : Fin cfg0.N) (p : Fin 1024) :
    (iblk m c 4 t : Vec Ideal S1024x1 .f32) (ix2 p (0 : Fin 1)) = Spec.sq (Xm m c) (Spec.col (rowBlk t) p) := by
  unfold iblk
  rw [View.read_apply]
  refine HostPrefix.v6_blk (Wm m c) _ (rowBlk t) p ?_
  show win0_4.index t 0 * 1024 + 1 * p.val = 1024 * (t.val / 8) + p.val
  rw [(idx_facts t).2.2.2.2.1.1]; omega

theorem iblk5_apply (c : Dev nD) (t : Fin cfg0.N) (q : Fin 1024) :
    (iblk m c 5 t : Vec Ideal S1x1024 .f32) (ix2 (0 : Fin 1) q) = Spec.sq (Xm m c) (Spec.col (colBlk t) q) := by
  unfold iblk
  rw [View.read_apply]
  refine HostPrefix.v7_blk (Wm m c) _ (colBlk t) q ?_
  show win0_5.index t 1 * 1024 + 1 * q.val = 1024 * (t.val % 8) + q.val
  rw [(idx_facts t).2.2.2.2.2.1.2]; omega

end Cert.KernelIdeal.Hand

end
-- ==== Proof.KernelPayEntry.lean ====
/-
  The entries the kernel selects over, read at (p, q), at the ideal values.

  The 1024 × 1024 tile of raw entries is  sqc q − 2 · ∑ₖ xi p k · xj q k  (the matrix product contracts the feature axis of
  both blocks, its accumulator is the zero tile); the label comparison at (p, q) is the one-bit word of  tr p = tc q;
  the maximum runs over the raw entry where the labels agree and −∞ elsewhere, the minimum over +∞ where they agree and
  the raw entry elsewhere.
-/
import proofs.«100007_j26680336843539_2_alg».proof.Proof.KernelPayBase

noncomputable section

namespace Cert.KernelPay

open Idealize.ShloMosaic Idealize.ShloMosaic.ValueIdx Idealize.SL.Sem Cert.KernelIdeal Cert.KernelIdeal.Gen

abbrev Dk := dot_S1024x128_S1024x128_S1024x1024_1_1_0_0_n_n

theorem lhs_0 (i : S1024x1024.Idx) (q : Dk.contr.Idx) : (Dk.lhsIdx i q 0).val = (i 0).val := by
  unfold DotDims.lhsIdx
  rw [dif_neg (show ¬(0 : Fin S1024x128.rank) ∈ Dk.lhsBatch by decide), dif_pos (show (0 : Fin S1024x128.rank) ∈ Dk.lhsNonContracting by decide)]
  rfl
theorem lhs_1 (i : S1024x1024.Idx) (q : Dk.contr.Idx) : (Dk.lhsIdx i q 1).val = (q ⟨0, by decide⟩).val :=
  Dk.lhsIdx_val_of_single rfl i q
theorem rhs_0 (i : S1024x1024.Idx) (q : Dk.contr.Idx) : (Dk.rhsIdx i q 0).val = (i 1).val := by
  unfold DotDims.rhsIdx
  rw [dif_neg (show ¬(0 : Fin S1024x128.rank) ∈ Dk.rhsBatch by decide), dif_pos (show (0 : Fin S1024x128.rank) ∈ Dk.rhsNonContracting by decide)]
  rfl
theorem rhs_1 (i : S1024x1024.Idx) (q : Dk.contr.Idx) : (Dk.rhsIdx i q 1).val = (q ⟨0, by decide⟩).val :=
  Dk.rhsIdx_val_of_single rfl i q

/-- The matrix product of a row block with the transpose of a column block, read at an entry. -/
theorem matmul_apply (xi xj : FVec Ideal S1024x128 .bf16) (p q : Fin 1024) :
    matmul Dk none xi xj (constant (F := Ideal) S1024x1024 .f32 0x00000000#32) (ix2 p q)
      = ∑ k : Fin 128, xi (ix2 p k) * xj (ix2 q k) := by
  simp only [matmul]
  rw [Ideal.matmul_constant_zero_apply, ← Equiv.sum_comp (contrEquiv1 Dk 128 rfl rfl).symm]
  refine Finset.sum_congr rfl fun k _ => ?_
  have hk := contrEquiv1_symm_val Dk 128 rfl rfl k
  have el : Dk.lhsIdx (ix2 p q) ((contrEquiv1 Dk 128 rfl rfl).symm k) = ix2 p k := funext fun a => Fin.ext (by
    match a with
    | ⟨0, _⟩ => exact lhs_0 _ _
    | ⟨1, _⟩ => exact (lhs_1 _ _).trans hk)
  have er : Dk.rhsIdx (ix2 p q) ((contrEquiv1 Dk 128 rfl rfl).symm k) = ix2 q k := funext fun a => Fin.ext (by
    match a with
    | ⟨0, _⟩ => exact rhs_0 _ _
    | ⟨1, _⟩ => exact (rhs_1 _ _).trans hk)
  rw [el, er]

/-- The raw entry: the column's squared norm minus twice the inner product. -/
theorem pay5_apply (xi xj : Vec Ideal S1024x128 .bf16) (sqc : Vec Ideal S1x1024 .f32) (p q : Fin 1024) :
    k0_pay5 (F := Ideal) xi xj sqc (ix2 p q)
      = sqc (ix2 (0 : Fin 1) q) - Spec.two * ∑ k : Fin 128, xi (ix2 p k) * xj (ix2 q k) := by
  unfold k0_pay5 Spec.two
  simp only [shapeCast_self]
  refine congrArg₂ (· - ·) (broadcastTo_1b_ab_apply sqc _ p q) (congrArg (Ideal.ofBits .f32 0x40000000#32 * ·) ?_)
  exact matmul_apply xi xj p q

theorem cmpi_eq_one_iff (x y : BitVec 32) : IntOp.cmpi .eq x y = 1#1 ↔ x = y := by
  unfold IntOp.cmpi
  show BitVec.ofBool (x == y) = 1#1 ↔ x = y
  by_cases h : x = y
  · subst h; simp
  · have hb : (x == y) = false := beq_eq_false_iff_ne.mpr h
    rw [hb]
    exact iff_of_false (by decide) h

/-- The label comparison, read at an entry. -/
theorem pay6_apply (tr : Vec Ideal S1024x1 .i32) (tc : Vec Ideal S1x1024 .i32) (p q : Fin 1024) :
    k0_pay6 (F := Ideal) tr tc (ix2 p q) = IntOp.cmpi .eq (tr (ix2 p (0 : Fin 1))) (tc (ix2 (0 : Fin 1) q)) := by
  unfold k0_pay6
  simp only [shapeCast_self]
  exact congrArg₂ (IntOp.cmpi .eq) (broadcastTo_a1_ab_apply tr _ p q) (broadcastTo_1b_ab_apply tc _ p q)

/-- The entries the maximum runs over: the raw entry where the labels agree, −∞ elsewhere. -/
theorem selPos_apply (xi xj : Vec Ideal S1024x128 .bf16) (sqc : Vec Ideal S1x1024 .f32)
    (tr : Vec Ideal S1024x1 .i32) (tc : Vec Ideal S1x1024 .i32) (p q : Fin 1024) :
    select (k0_pay6 (F := Ideal) tr tc) (k0_pay5 (F := Ideal) xi xj sqc)
        (broadcast S1024x1024 (Scalar.ofBits (F := Ideal) .f32 0xFF800000#32)) (ix2 p q)
      = if tr (ix2 p (0 : Fin 1)) = tc (ix2 (0 : Fin 1) q)
          then sqc (ix2 (0 : Fin 1) q) - Spec.two * ∑ k : Fin 128, xi (ix2 p k) * xj (ix2 q k) else ⊥ := by
  rw [select_apply, pay6_apply, pay5_apply, broadcast_apply]
  unfold Scalar.select
  by_cases h : tr (ix2 p (0 : Fin 1)) = tc (ix2 (0 : Fin 1) q)
  · have hc : IntOp.cmpi .eq (tr (ix2 p (0 : Fin 1))) (tc (ix2 (0 : Fin 1) q)) = 1 := (cmpi_eq_one_iff _ _).2 h
    rw [if_pos hc, if_pos h]
  · have hc : ¬ IntOp.cmpi .eq (tr (ix2 p (0 : Fin 1))) (tc (ix2 (0 : Fin 1) q)) = 1 := mt (cmpi_eq_one_iff _ _).1 h
    rw [if_neg hc, if_neg h]
    exact ofBits_neg_inf

/-- The entries the minimum runs over: +∞ where the labels agree, the raw entry elsewhere. -/
theorem selNeg_apply (xi xj : Vec Ideal S1024x128 .bf16) (sqc : Vec Ideal S1x1024 .f32)
    (tr : Vec Ideal S1024x1 .i32) (tc : Vec Ideal S1x1024 .i32) (p q : Fin 1024) :
    select (k0_pay6 (F := Ideal) tr tc) (broadcast S1024x1024 (Scalar.ofBits (F := Ideal) .f32 0x7F800000#32))
        (k0_pay5 (F := Ideal) xi xj sqc) (ix2 p q)
      = if tr (ix2 p (0 : Fin 1)) = tc (ix2 (0 : Fin 1) q)
          then ⊤ else sqc (ix2 (0 : Fin 1) q) - Spec.two * ∑ k : Fin 128, xi (ix2 p k) * xj (ix2 q k) := by
  rw [select_apply, pay6_apply, pay5_apply, broadcast_apply]
  unfold Scalar.select
  by_cases h : tr (ix2 p (0 : Fin 1)) = tc (ix2 (0 : Fin 1) q)
  · have hc : IntOp.cmpi .eq (tr (ix2 p (0 : Fin 1))) (tc (ix2 (0 : Fin 1) q)) = 1 := (cmpi_eq_one_iff _ _).2 h
    rw [if_pos hc, if_pos h]
    exact ofBits_pos_inf
  · have hc : ¬ IntOp.cmpi .eq (tr (ix2 p (0 : Fin 1))) (tc (ix2 (0 : Fin 1) q)) = 1 := mt (cmpi_eq_one_iff _ _).1 h
    rw [if_neg hc, if_neg h]

end Cert.KernelPay

end
-- ==== Proof.KernelPayLane.lean ====
/-
  The reductions along the 1024 lanes of a 1024 × 1024 tile, read at a row, at the ideal values: the maximum from −∞ is
  the supremum over the row's entries, the minimum from +∞ their infimum.
-/
import proofs.«100007_j26680336843539_2_alg».proof.Proof.KernelPayBase

noncomputable section

namespace Cert.KernelPay

open Idealize.ShloMosaic Idealize.ShloMosaic.ValueIdx Idealize.SL.Sem Cert.KernelIdeal Cert.KernelIdeal.Gen

/-- A fold of the maximum from −∞ is the supremum, a fold of the minimum from +∞ the infimum. -/
theorem fold_max_eq_sup {ι : Type} [DecidableEq ι] (s : Finset ι) (f : ι → EReal) : s.fold max ⊥ f = s.sup f := by
  induction s using Finset.induction_on with
  | empty => simp
  | insert a s ha ih => rw [Finset.fold_insert ha, Finset.sup_insert, ih]
theorem fold_min_eq_inf {ι : Type} [DecidableEq ι] (s : Finset ι) (f : ι → EReal) : s.fold min ⊤ f = s.inf f := by
  induction s using Finset.induction_on with
  | empty => simp
  | insert a s ha ih => rw [Finset.fold_insert ha, Finset.inf_insert, ih]

theorem lift_eq (p q : Fin 1024) : reduces_S1024x1024_S1024.lift (ix1 p) q = ix2 p q := by
  funext a
  match a with
  | ⟨0, _⟩ => exact Fin.ext rfl
  | ⟨1, _⟩ => exact Fin.ext rfl

/-- The maximum along the lanes, read at a row. -/
theorem laneMax (src : FVec Ideal S1024x1024 .f32) (hφ : FKind.Formats .f32)
    (hacc : (0xFF800000#32 : BitVec 32) = FKind.maximumf.neutral .f32 hφ) (p : Fin 1024) :
    multiReduction .maximumf [1] S1024 src 0xFF800000#32 reduces_S1024x1024_S1024 hφ hacc (ix1 p)
      = Finset.univ.sup fun q : Fin 1024 => src (ix2 p q) := by
  refine (Ideal.multiReduction_maximumf_single src _ reduces_S1024x1024_S1024 hφ hacc (ix1 p)).trans ?_
  show (Finset.univ : Finset (Fin 1024)).fold max (Ideal.ofBits .f32 0xFF800000#32) (fun q => src (reduces_S1024x1024_S1024.lift (ix1 p) q)) = _
  rw [ofBits_neg_inf]
  have e : (fun q : Fin 1024 => src (reduces_S1024x1024_S1024.lift (ix1 p) q)) = fun q : Fin 1024 => src (ix2 p q) :=
    funext fun q => congrArg src (lift_eq p q)
  exact (congrArg (fun f : Fin 1024 → EReal => (Finset.univ : Finset (Fin 1024)).fold max ⊥ f) e).trans (fold_max_eq_sup _ _)

/-- The minimum along the lanes, read at a row. -/
theorem laneMin (src : FVec Ideal S1024x1024 .f32) (hφ : FKind.Formats .f32)
    (hacc : (0x7F800000#32 : BitVec 32) = FKind.minimumf.neutral .f32 hφ) (p : Fin 1024) :
    multiReduction .minimumf [1] S1024 src 0x7F800000#32 reduces_S1024x1024_S1024 hφ hacc (ix1 p)
      = Finset.univ.inf fun q : Fin 1024 => src (ix2 p q) := by
  refine (multiReduction_minimumf_eq_fold src _ reduces_S1024x1024_S1024 hφ hacc (ix1 p)).trans ?_
  refine (reduces_S1024x1024_S1024.fold_filter_drop_single _ _ src (ix1 p)).trans ?_
  show (Finset.univ : Finset (Fin 1024)).fold min (Ideal.ofBits .f32 0x7F800000#32) (fun q => src (reduces_S1024x1024_S1024.lift (ix1 p) q)) = _
  rw [ofBits_pos_inf]
  have e : (fun q : Fin 1024 => src (reduces_S1024x1024_S1024.lift (ix1 p) q)) = fun q : Fin 1024 => src (ix2 p q) :=
    funext fun q => congrArg src (lift_eq p q)
  exact (congrArg (fun f : Fin 1024 → EReal => (Finset.univ : Finset (Fin 1024)).fold min ⊤ f) e).trans (fold_min_eq_inf _ _)

end Cert.KernelPay

end
-- ==== Proof.KernelPaySel.lean ====
/-
  The two running selections the kernel stores after a column block, read at a row, at the ideal values:
  the maximum of the previous value and the block's supremum, the minimum of the previous value and the block's infimum.
-/
import proofs.«100007_j26680336843539_2_alg».proof.Proof.KernelPayEntry
import proofs.«100007_j26680336843539_2_alg».proof.Proof.KernelPayLane

noncomputable section

namespace Cert.KernelPay

open Idealize.ShloMosaic Idealize.ShloMosaic.ValueIdx Idealize.SL.Sem Cert.KernelIdeal Cert.KernelIdeal.Gen

/-- The running maximum after a column block: the previous value and the block's supremum of the selected raw entries. -/
theorem pay8_apply (xi xj : Vec Ideal S1024x128 .bf16) (sqc : Vec Ideal S1x1024 .f32)
    (tr : Vec Ideal S1024x1 .i32) (tc : Vec Ideal S1x1024 .i32) (prev : Vec Ideal S1024x1 .f32) (p : Fin 1024) :
    k0_pay8 (F := Ideal) xi xj sqc tr tc prev (ix2 p (0 : Fin 1))
      = max (prev (ix2 p (0 : Fin 1))) (Finset.univ.sup fun q : Fin 1024 =>
          if tr (ix2 p (0 : Fin 1)) = tc (ix2 (0 : Fin 1) q)
            then sqc (ix2 (0 : Fin 1) q) - Spec.two * ∑ k : Fin 128, xi (ix2 p k) * xj (ix2 q k) else ⊥) := by
  unfold k0_pay8
  simp only [shapeCast_self]
  refine congrArg (max (prev (ix2 p (0 : Fin 1)))) ?_
  refine (shapeCast_a_a1_apply _ _ p 0).trans ?_
  refine (laneMax _ _ _ p).trans ?_
  exact Finset.sup_congr rfl fun q _ => selPos_apply xi xj sqc tr tc p q

/-- The running minimum after a column block: the previous value and the block's infimum of the selected raw entries. -/
theorem pay1_pay7_apply (xi xj : Vec Ideal S1024x128 .bf16) (sqc : Vec Ideal S1x1024 .f32)
    (tr : Vec Ideal S1024x1 .i32) (tc : Vec Ideal S1x1024 .i32) (prev : Vec Ideal S1024x1 .f32) (p : Fin 1024) :
    k0_pay1 (F := Ideal) (k0_pay7 (F := Ideal) xi xj sqc tr tc) prev (ix2 p (0 : Fin 1))
      = min (prev (ix2 p (0 : Fin 1))) (Finset.univ.inf fun q : Fin 1024 =>
          if tr (ix2 p (0 : Fin 1)) = tc (ix2 (0 : Fin 1) q)
            then ⊤ else sqc (ix2 (0 : Fin 1) q) - Spec.two * ∑ k : Fin 128, xi (ix2 p k) * xj (ix2 q k)) := by
  unfold k0_pay1 k0_pay7
  simp only [shapeCast_self]
  refine congrArg (min (prev (ix2 p (0 : Fin 1)))) ?_
  refine (shapeCast_a_a1_apply _ _ p 0).trans ?_
  refine (laneMin _ _ _ p).trans ?_
  exact Finset.inf_congr rfl fun q _ => selNeg_apply xi xj sqc tr tc p q

end Cert.KernelPay

end
-- ==== Proof.KIValueAcc.lean ====
/-
  The two running selections after each grid point, at the ideal values.

  After the point of row block i and column block j the running maximum holds, at row p, the maximum over the first
  j + 1 column blocks of the block suprema of the selected raw entries of row 1024·i + p, and the running minimum the
  minimum of the block infima: at a first column block the fold starts from −∞ (from +∞), elsewhere from what the point
  before left. By induction on the point.
-/
import proofs.«100007_j26680336843539_2_alg».proof.Proof.KIPieces
import proofs.«100007_j26680336843539_2_alg».proof.Proof.KIValueBlk
import proofs.«100007_j26680336843539_2_alg».proof.Proof.KernelPaySel

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## One more column block -/

theorem accPos_step (x : Spec.Feat) (T : Spec.Lab) (r : Fin 8192) (j : Fin 8) :
    Spec.accPos x T r (j.val + 1) = max (Spec.accPos x T r j.val) (Spec.blkPos x T r j) := by
  show max _ (if h : j.val < 8 then Spec.blkPos x T r ⟨j.val, h⟩ else ⊥) = _
  rw [dif_pos j.isLt]
theorem accNeg_step (x : Spec.Feat) (T : Spec.Lab) (r : Fin 8192) (j : Fin 8) :
    Spec.accNeg x T r (j.val + 1) = min (Spec.accNeg x T r j.val) (Spec.blkNeg x T r j) := by
  show min _ (if h : j.val < 8 then Spec.blkNeg x T r ⟨j.val, h⟩ else ⊤) = _
  rw [dif_pos j.isLt]

/-- The running maximum after a point, from any previous contents. -/
theorem max_step (c : Dev nD) (t : Fin cfg0.N) (prev : Vec Ideal S1024x1 .f32) (p : Fin 1024) :
    k0_pay8 (F := Ideal) (iblk m c 0 t) (iblk m c 1 t) (iblk m c 5 t) (iblk m c 2 t) (iblk m c 3 t) prev (ix2 p (0 : Fin 1))
      = max (prev (ix2 p (0 : Fin 1))) (Spec.blkPos (Xm m c) (Tm m c) (Spec.col (rowBlk t) p) (colBlk t)) := by
  rw [Cert.KernelPay.pay8_apply]
  refine congrArg (max (prev (ix2 p (0 : Fin 1)))) (Finset.sup_congr rfl fun q _ => ?_)
  rw [iblk2_apply m c t p, iblk3_apply m c t q, iblk5_apply m c t q]
  rw [Finset.sum_congr rfl fun k _ => by rw [iblk0_apply m c t p k, iblk1_apply m c t q k]]
  rfl

/-- The running minimum after a point, from any previous contents. -/
theorem min_step (c : Dev nD) (t : Fin cfg0.N) (prev : Vec Ideal S1024x1 .f32) (p : Fin 1024) :
    k0_pay1 (F := Ideal) (k0_pay7 (F := Ideal) (iblk m c 0 t) (iblk m c 1 t) (iblk m c 5 t) (iblk m c 2 t) (iblk m c 3 t)) prev (ix2 p (0 : Fin 1))
      = min (prev (ix2 p (0 : Fin 1))) (Spec.blkNeg (Xm m c) (Tm m c) (Spec.col (rowBlk t) p) (colBlk t)) := by
  rw [Cert.KernelPay.pay1_pay7_apply]
  refine congrArg (min (prev (ix2 p (0 : Fin 1)))) (Finset.inf_congr rfl fun q _ => ?_)
  rw [iblk2_apply m c t p, iblk3_apply m c t q, iblk5_apply m c t q]
  rw [Finset.sum_congr rfl fun k _ => by rw [iblk0_apply m c t p k, iblk1_apply m c t q k]]
  rfl

/-! ## By induction on the point -/

/-- What the two scratches hold after point n. -/
def AccAt (c : Dev nD) (n : ℕ) (hn : n < cfg0.N) : Prop :=
  ∀ p : Fin 1024,
    (outsAt m c n hn).2.1 (ix2 p (0 : Fin 1))
        = Spec.accPos (Xm m c) (Tm m c) (Spec.col (rowBlk ⟨n, hn⟩) p) (n % 8 + 1)
    ∧ (outsAt m c n hn).2.2 (ix2 p (0 : Fin 1))
        = Spec.accNeg (Xm m c) (Tm m c) (Spec.col (rowBlk ⟨n, hn⟩) p) (n % 8 + 1)

theorem accAt_first (c : Dev nD) (t : Fin cfg0.N) (h0 : t.val % 8 = 0) : AccAt m c t.val t.isLt := by
  intro p
  have h1 : ¬t.val % 8 = 7 := by omega
  have hj : (colBlk t).val = 0 := h0
  rw [outsAt_A m c t h0 h1]
  dsimp only
  rw [outA0_eq, outA1_eq, max_step, min_step, Cert.KernelPay.pay3_apply, Cert.KernelPay.pay4_apply]
  rw [show t.val % 8 + 1 = (colBlk t).val + 1 from rfl, accPos_step, accNeg_step, hj]
  exact ⟨rfl, rfl⟩

theorem accAt_step (c : Dev nD) (t : Fin cfg0.N) (h0 : ¬t.val % 8 = 0)
    (ih : AccAt m c (t.val - 1) (Nat.lt_of_le_of_lt (Nat.sub_le _ _) t.isLt)) : AccAt m c t.val t.isLt := by
  intro p
  have hrow : rowBlk ⟨t.val - 1, Nat.lt_of_le_of_lt (Nat.sub_le _ _) t.isLt⟩ = rowBlk t :=
    Fin.ext (by show (t.val - 1) / 8 = t.val / 8; omega)
  have hk : (t.val - 1) % 8 + 1 = (colBlk t).val := by show (t.val - 1) % 8 + 1 = t.val % 8; omega
  obtain ⟨ihP, ihN⟩ := ih p
  rw [hrow, hk] at ihP ihN
  rw [show t.val % 8 + 1 = (colBlk t).val + 1 from rfl, accPos_step, accNeg_step]
  by_cases h1 : t.val % 8 = 7
  · rw [outsAt_C m c t h0 h1]
    dsimp only
    rw [outC0_eq, outC1_eq, max_step, min_step, ihP, ihN]
    exact ⟨rfl, rfl⟩
  · rw [outsAt_B m c t h0 h1]
    dsimp only
    rw [outB0_eq, outB1_eq, max_step, min_step, ihP, ihN]
    exact ⟨rfl, rfl⟩

theorem accAt (c : Dev nD) : ∀ (n : ℕ) (hn : n < cfg0.N), AccAt m c n hn := by
  intro n
  induction n with
  | zero => intro hn; exact accAt_first m c ⟨0, hn⟩ rfl
  | succ n ih =>
    intro hn
    by_cases h0 : (n + 1) % 8 = 0
    · exact accAt_first m c ⟨n + 1, hn⟩ h0
    · exact accAt_step m c ⟨n + 1, hn⟩ h0 (ih _)

/-- The running maximum and minimum after grid point t, at row p of its row block. -/
theorem outsAt_acc (c : Dev nD) (t : Fin cfg0.N) (p : Fin 1024) :
    (outsAt m c t.val t.isLt).2.1 (ix2 p (0 : Fin 1))
        = Spec.accPos (Xm m c) (Tm m c) (Spec.col (rowBlk t) p) (t.val % 8 + 1)
    ∧ (outsAt m c t.val t.isLt).2.2 (ix2 p (0 : Fin 1))
        = Spec.accNeg (Xm m c) (Tm m c) (Spec.col (rowBlk t) p) (t.val % 8 + 1) :=
  accAt m c t.val t.isLt p

end Cert.KernelIdeal.Hand

end
-- ==== Proof.KIValueMean.lean ====
/-
  The host's mean of the rows' losses, at the ideal values: the sum over all 8192 × 1 entries from the initial value 0,
  divided by the constant 8192, is the exact quotient of  ∑ᵣ outv r  by the count.
-/
import proofs.«100007_j26680336843539_2_alg».proof.Proof.Gen.KernelIdeal
import proofs.«100007_j26680336843539_2_alg».proof.Proof.Spec
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-- The host's total of a column and its division by the count. -/
theorem mean_eq (outv : S8192x1.Idx → EReal) :
    Host.divf (F := Ideal) (φ := .f32)
        (Host.reduceAdd (F := Ideal) (φ := .f32) outv (constant (F := Ideal) S_ .f32 0x00000000#32) reducesTo_S8192x1_S_d0_1 h_S_)
        (constant (F := Ideal) S_ .f32 0x46000000#32)
      = fun _ => Ideal.div (∑ r : Fin 8192, outv (ix2 r (0 : Fin 1))) Spec.count := by
  funext j
  show Ideal.div (Ideal.hostReduceAdd reducesTo_S8192x1_S_d0_1 outv (Ideal.ofBits .f32 0x00000000#32) j) (Ideal.ofBits .f32 0x46000000#32) = _
  rw [Ideal.hostReduceAdd_total reducesTo_S8192x1_S_d0_1 (fun b => b.elim0), Ideal.ofBits_zero_f32, zero_add, sum_idx2]
  refine congrArg (fun s => Ideal.div s Spec.count) (Finset.sum_congr rfl fun r _ => ?_)
  exact Fin.sum_univ_one _

end Cert.KernelIdeal.Hand

end
-- ==== Proof.SpecDeferred.lean ====
/-
  The deferred form of the row loss equals the row loss.

  For a fixed s ≥ 0 the map  g v = √(max (s + v) 0)  is monotone on the extended reals: addition is monotone,
  the clamp is monotone, and the extended square root (−∞ below zero, the real root on [0, ∞), +∞ at +∞) is monotone.
  A monotone map of a linear order carries the infimum of a finite family to the infimum of the images as soon as it
  fixes +∞ (here s ≠ −∞ because s is a sum of squares), and carries the supremum to the supremum of the images over the
  selected entries because the entry c = r is always selected, so the unselected entries (which g sends to g(−∞))
  never exceed it.
-/
import proofs.«100007_j26680336843539_2_alg».proof.Proof.Spec
import Mathlib.Order.CompleteLattice.Finset
import Mathlib.Data.Finset.Lattice.Fold

noncomputable section

namespace Cert.SpecDeferred

open Idealize.ShloMosaic
open Cert.Spec

/-- The extended square root is monotone. -/
theorem sqrt_mono : Monotone Ideal.sqrt := by
  intro a b hab
  induction a using EReal.rec with
  | bot => simp
  | top =>
      have : b = ⊤ := top_le_iff.mp hab
      subst this; exact le_rfl
  | coe a =>
    induction b using EReal.rec with
    | bot => exact absurd hab (by simp)
    | top => simp
    | coe b =>
      have hab' : a ≤ b := EReal.coe_le_coe_iff.mp hab
      simp only [Ideal.sqrt_coe]
      by_cases ha : a < 0
      · simp [ha]
      · have hb : ¬ b < 0 := fun hb => ha (lt_of_le_of_lt hab' hb)
        simp only [ha, hb, if_false]
        exact EReal.coe_le_coe_iff.mpr (Real.sqrt_le_sqrt hab')

/-- The map applied after the selection. -/
def g (s v : EReal) : EReal := Ideal.sqrt (max (s + v) 0)

theorem g_mono (s : EReal) : Monotone (g s) := by
  intro v w hvw
  exact sqrt_mono (max_le_max (add_le_add le_rfl hvw) le_rfl)

/-- A product of an extended real with itself is not negative. -/
theorem mul_self_nonneg' (a : EReal) : 0 ≤ a * a := by
  induction a using EReal.rec with
  | bot => simp [EReal.bot_mul_bot]
  | top => simp [EReal.top_mul_top]
  | coe a =>
    rw [← EReal.coe_mul]
    exact EReal.coe_nonneg.mpr (mul_self_nonneg a)

theorem sq_nonneg (x : Feat) (r : Fin 8192) : 0 ≤ sq x r :=
  Finset.sum_nonneg fun k _ => mul_self_nonneg' (x r k)

theorem g_top {s : EReal} (hs : 0 ≤ s) : g s ⊤ = ⊤ := by
  have hne : s ≠ ⊥ := fun h => by rw [h] at hs; exact absurd hs (by simp)
  simp [g, EReal.add_top_of_ne_bot hne]

/-- The distance is g of the raw entry. -/
theorem dist_eq_g (x : Feat) (r c : Fin 8192) : Spec.dist x r c = g (sq x r) (raw x r c) := by
  unfold Spec.dist g raw
  rw [sub_eq_add_neg, sub_eq_add_neg, add_assoc]

theorem hardNeg_eq (x : Feat) (t : Lab) (r : Fin 8192) :
    hardNeg x t r = g (sq x r) (rawNeg x t r) := by
  unfold hardNeg rawNeg
  rw [Finset.comp_inf_eq_inf_comp_of_is_total (g (sq x r)) (g_mono _) (g_top (sq_nonneg x r))]
  refine Finset.inf_congr rfl fun c _ => ?_
  by_cases h : t r = t c
  · simp [h, g_top (sq_nonneg x r)]
  · simp [h, dist_eq_g]

theorem hardPos_eq (x : Feat) (t : Lab) (r : Fin 8192) :
    hardPos x t r = g (sq x r) (rawPos x t r) := by
  unfold hardPos rawPos
  apply le_antisymm
  · refine Finset.sup_le fun c _ => ?_
    by_cases h : t r = t c
    · simp only [h, if_true, dist_eq_g]
      apply g_mono
      have := Finset.le_sup (f := fun c => if t r = t c then raw x r c else ⊥) (Finset.mem_univ c)
      simpa [h] using this
    · simp [h]
  · obtain ⟨c₀, _, hc₀⟩ := Finset.exists_mem_eq_sup (Finset.univ : Finset (Fin 8192)) Finset.univ_nonempty
      (fun c => if t r = t c then raw x r c else ⊥)
    rw [hc₀]
    by_cases h : t r = t c₀
    · have := Finset.le_sup (f := fun c => if t r = t c then Spec.dist x r c else ⊥) (Finset.mem_univ c₀)
      simpa [h, dist_eq_g] using this
    · have h1 : g (sq x r) (if t r = t c₀ then raw x r c₀ else ⊥) ≤ g (sq x r) (raw x r r) := by
        apply g_mono; simp [h]
      refine h1.trans ?_
      have := Finset.le_sup (f := fun c => if t r = t c then Spec.dist x r c else ⊥) (Finset.mem_univ r)
      simpa [dist_eq_g] using this

end Cert.SpecDeferred

namespace Cert.Spec

/-- The row loss computed from the deferred selections is the row loss. -/
theorem deferredRow_eq (x : Feat) (t : Lab) (r : Fin 8192) : deferredRow x t r = rowLoss x t r := by
  unfold deferredRow rowLoss finish
  rw [Cert.SpecDeferred.hardPos_eq, Cert.SpecDeferred.hardNeg_eq]
  rfl

end Cert.Spec

end
-- ==== Proof.SpecBlocks.lean ====
/-
  The selection made one block of 1024 columns at a time is the selection over all 8192 columns.

  Every column c is column (c mod 1024) of block (c div 1024). An upper bound of the running maximum after n blocks is
  exactly an upper bound of each of the first n blocks' suprema, and an upper bound of a block's supremum is an upper
  bound of each of its entries; so the running maximum after 8 blocks and the supremum over all columns have the same
  upper bounds, and are equal. Dually for the running minimum and the infimum.
-/
import proofs.«100007_j26680336843539_2_alg».proof.Proof.Spec
import Mathlib.Order.CompleteLattice.Finset
import Mathlib.Data.Finset.Lattice.Fold

noncomputable section

namespace Cert.SpecBlocks

open Cert.Spec

/-- Every column lies in a block. -/
theorem col_surj (c : Fin 8192) : ∃ (j : Fin 8) (q : Fin 1024), col j q = c :=
  ⟨⟨c.val / 1024, by have := c.isLt; omega⟩, ⟨c.val % 1024, Nat.mod_lt _ (by decide)⟩,
    Fin.ext (by show 1024 * (c.val / 1024) + c.val % 1024 = c.val; omega)⟩

theorem accPos_le_iff (x : Feat) (t : Lab) (r : Fin 8192) (n : ℕ) (z : EReal) :
    accPos x t r n ≤ z ↔ ∀ j : Fin 8, j.val < n → blkPos x t r j ≤ z := by
  induction n with
  | zero =>
    show (⊥ : EReal) ≤ z ↔ _
    exact ⟨fun _ j hj => absurd hj (Nat.not_lt_zero _), fun _ => bot_le⟩
  | succ n ih =>
    show max (accPos x t r n) (if h : n < 8 then blkPos x t r ⟨n, h⟩ else ⊥) ≤ z ↔ _
    rw [max_le_iff, ih]
    constructor
    · rintro ⟨h1, h2⟩ j hj
      rcases Nat.lt_succ_iff_lt_or_eq.mp hj with h | h
      · exact h1 j h
      · have hn : n < 8 := by have := j.isLt; omega
        rw [dif_pos hn] at h2
        have hj' : j = ⟨n, hn⟩ := Fin.ext h
        rw [hj']; exact h2
    · intro h
      refine ⟨fun j hj => h j (Nat.lt_succ_of_lt hj), ?_⟩
      by_cases hn : n < 8
      · rw [dif_pos hn]; exact h ⟨n, hn⟩ (Nat.lt_succ_self n)
      · rw [dif_neg hn]; exact bot_le

theorem le_accNeg_iff (x : Feat) (t : Lab) (r : Fin 8192) (n : ℕ) (z : EReal) :
    z ≤ accNeg x t r n ↔ ∀ j : Fin 8, j.val < n → z ≤ blkNeg x t r j := by
  induction n with
  | zero =>
    show z ≤ (⊤ : EReal) ↔ _
    exact ⟨fun _ j hj => absurd hj (Nat.not_lt_zero _), fun _ => le_top⟩
  | succ n ih =>
    show z ≤ min (accNeg x t r n) (if h : n < 8 then blkNeg x t r ⟨n, h⟩ else ⊤) ↔ _
    rw [le_min_iff, ih]
    constructor
    · rintro ⟨h1, h2⟩ j hj
      rcases Nat.lt_succ_iff_lt_or_eq.mp hj with h | h
      · exact h1 j h
      · have hn : n < 8 := by have := j.isLt; omega
        rw [dif_pos hn] at h2
        have hj' : j = ⟨n, hn⟩ := Fin.ext h
        rw [hj']; exact h2
    · intro h
      refine ⟨fun j hj => h j (Nat.lt_succ_of_lt hj), ?_⟩
      by_cases hn : n < 8
      · rw [dif_pos hn]; exact h ⟨n, hn⟩ (Nat.lt_succ_self n)
      · rw [dif_neg hn]; exact le_top

end Cert.SpecBlocks

namespace Cert.Spec

/-- The running maximum after all 8 column blocks is the supremum over all columns. -/
theorem accPos_eight (x : Feat) (t : Lab) (r : Fin 8192) : accPos x t r 8 = rawPos x t r := by
  refine eq_of_forall_ge_iff fun z => ?_
  rw [Cert.SpecBlocks.accPos_le_iff]
  unfold rawPos blkPos
  simp only [Finset.sup_le_iff, Finset.mem_univ, true_implies]
  constructor
  · intro h c
    obtain ⟨j, q, rfl⟩ := Cert.SpecBlocks.col_surj c
    exact h j j.isLt q
  · intro h j _ q
    exact h (col j q)

/-- The running minimum after all 8 column blocks is the infimum over all columns. -/
theorem accNeg_eight (x : Feat) (t : Lab) (r : Fin 8192) : accNeg x t r 8 = rawNeg x t r := by
  refine eq_of_forall_le_iff fun z => ?_
  rw [Cert.SpecBlocks.le_accNeg_iff]
  unfold rawNeg blkNeg
  simp only [Finset.le_inf_iff, Finset.mem_univ, true_implies]
  constructor
  · intro h c
    obtain ⟨j, q, rfl⟩ := Cert.SpecBlocks.col_surj c
    exact h j j.isLt q
  · intro h j _ q
    exact h (col j q)

end Cert.Spec

end
-- ==== Proof.KIValueOut.lean ====
/-
  The output array after the region, at the ideal values: every entry is the row's loss.

  The output window is written back at the last column block of each row block. What is written back there is, at row p,
  the row loss computed from the row's squared norm and the finished running maximum and minimum; after all 8 column
  blocks these are the selections over all 8192 columns, and the deferred form of the row loss is the row loss. Row r is
  written back by the point of row block r div 1024 and column block 7.
-/
import proofs.«100007_j26680336843539_2_alg».proof.Proof.KIValueAcc
import proofs.«100007_j26680336843539_2_alg».proof.Proof.KIValueMean
import proofs.«100007_j26680336843539_2_alg».proof.Proof.SpecDeferred
import proofs.«100007_j26680336843539_2_alg».proof.Proof.SpecBlocks
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- The column of the rows' losses. -/
def lossCol (c : Dev nD) : S8192x1.Idx → EReal :=
  fun j => Spec.rowLoss (Xm m c) (Tm m c) ⟨(j 0).val, idx2_lt0 j⟩

theorem lossCol_of_row (c : Dev nD) (j : S8192x1.Idx) (r : Fin 8192) (h : (j 0).val = r.val) :
    lossCol m c j = Spec.rowLoss (Xm m c) (Tm m c) r :=
  congrArg (Spec.rowLoss (Xm m c) (Tm m c)) (Fin.ext h)

/-- At a last column block the output block is the row loss from the two finished selections. -/
theorem out6_last (c : Dev nD) (t : Fin cfg0.N) (h7 : t.val % 8 = 7) :
    (outsAt m c t.val t.isLt).1
      = k0_pay2 (F := Ideal) (iblk m c 4 t) (outsAt m c t.val t.isLt).2.1 (outsAt m c t.val t.isLt).2.2 := by
  have h0 : ¬t.val % 8 = 0 := by omega
  rw [outsAt_C m c t h0 h7]
  dsimp only
  rw [outC6_eq, outC0_eq, outC1_eq]

/-- The written-back block, read at a row. -/
theorem out6_apply (c : Dev nD) (t : Fin cfg0.N) (h7 : t.val % 8 = 7) (p : Fin 1024) :
    (outsAt m c t.val t.isLt).1 (ix2 p (0 : Fin 1)) = Spec.rowLoss (Xm m c) (Tm m c) (Spec.col (rowBlk t) p) := by
  rw [out6_last m c t h7, Cert.KernelPay.pay2_apply, iblk4_apply, (outsAt_acc m c t p).1, (outsAt_acc m c t p).2, h7]
  show Spec.finish _ (Spec.accPos _ _ _ 8) (Spec.accNeg _ _ _ 8) = _
  rw [Spec.accPos_eight, Spec.accNeg_eight]
  exact Spec.deferredRow_eq _ _ _

/-- What a last column block's point writes back is its block of the column of losses. -/
theorem flushed6_eq (c : Dev nD) (t : Fin cfg0.N) (hf : (cfg0.win 6).flush t = true) :
    (dats m 0 c).flushed 6 t = ((cfg0.win 6).blk t).view.read (Elt Ideal) (lossCol m c) := by
  have h7 : t.val % 8 = 7 := (flush0_6 t).mp hf
  show (cfg0.win 6).cut (grid0.coords t) ((dats m 0 c).after 6 t) = _
  rw [after6]
  funext y
  obtain ⟨p, u, rfl⟩ : ∃ (p : Fin 1024) (u : Fin 1), y = ix2 p u := ⟨y 0, y 1, eq_ix2 y⟩
  obtain rfl : u = 0 := Subsingleton.elim _ _
  rw [View.read_apply]
  show (outsAt m c t.val t.isLt).1 (ix2 p (0 : Fin 1)) = lossCol m c (((cfg0.win 6).blk t).view.emb (ix2 p (0 : Fin 1)))
  rw [out6_apply m c t h7 p]
  refine (lossCol_of_row m c _ (Spec.col (rowBlk t) p) ?_).symm
  show win0_6.index t 0 * 1024 + 1 * p.val = 1024 * (t.val / 8) + p.val
  rw [(idx_facts t).2.2.2.2.2.2.1]; omega

/-- An index of the array is in a point's block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v8).slice (win0_6.rect t)).set ↔ _
  rw [View.set_slice_whole, Rect.mem_set_unit]
  exact Iff.rfl

/-- Row r is written back by the point of row block r div 1024 and column block 7. -/
theorem cover6 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 64 := N_0
  have ht : 8 * ((i 0).val / 1024) + 7 < cfg0.N := by omega
  have e0 : win0_6.index ⟨8 * ((i 0).val / 1024) + 7, ht⟩ 0 = (8 * ((i 0).val / 1024) + 7) / 8 :=
    (idx_facts ⟨8 * ((i 0).val / 1024) + 7, ht⟩).2.2.2.2.2.2.1
  have e1 : win0_6.index ⟨8 * ((i 0).val / 1024) + 7, ht⟩ 1 = 0 :=
    (idx_facts ⟨8 * ((i 0).val / 1024) + 7, ht⟩).2.2.2.2.2.2.2
  refine ⟨⟨8 * ((i 0).val / 1024) + 7, ht⟩, (flush0_6 _).mpr (by show (8 * ((i 0).val / 1024) + 7) % 8 = 7; omega), ?_⟩
  rw [mem_blk6]
  intro a
  match a with
  | ⟨0, _⟩ =>
    show win0_6.index ⟨8 * ((i 0).val / 1024) + 7, ht⟩ 0 * 1024 ≤ (i 0).val ∧ (i 0).val < win0_6.index ⟨8 * ((i 0).val / 1024) + 7, ht⟩ 0 * 1024 + 1024
    rw [e0]; omega
  | ⟨1, _⟩ =>
    show win0_6.index ⟨8 * ((i 0).val / 1024) + 7, ht⟩ 1 * 1 ≤ (i 1).val ∧ (i 1).val < win0_6.index ⟨8 * ((i 0).val / 1024) + 7, ht⟩ 1 * 1 + 1
    rw [e1]; omega

/-- The output array after the region is the column of the rows' losses. -/
theorem final6 (c : Dev nD) : (dats m 0 c).arrAt 6 cfg0.N = lossCol m c :=
  (dats m 0 c).arrAt_eq_of_cover 6 (lossCol m c) (flushed6_eq m c) cover6

/-- The host's mean of the column of losses is the loss. -/
theorem mean_lossCol (c : Dev nD) :
    Host.divf (F := Ideal) (φ := .f32)
        (Host.reduceAdd (F := Ideal) (φ := .f32) (lossCol m c) (constant (F := Ideal) S_ .f32 0x00000000#32) reducesTo_S8192x1_S_d0_1 h_S_)
        (constant (F := Ideal) S_ .f32 0x46000000#32)
      = fun _ => Spec.loss (Xm m c) (Tm m c) := by
  rw [mean_eq]
  rfl

end Cert.KernelIdeal.Hand

end
-- ==== Proof.RefRun.lean ====
/-
  The reference program's run, with its result left as the fold of its operations.

  The program is a straight line of 57 tensor operations (the bodies of the functions it calls standing in their
  calls' places). Every weakly fair execution from a memory with zero counters terminates; the result buffer then holds
  what the fold of the operations' results over the launch contents gives it, and the two argument buffers, which no
  operation writes, hold what they held.
-/
import proofs.«100007_j26680336843539_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- The arrays of a shape and an element type. -/
abbrev Arr (F : FTy → Type) (s : Shape) (e : EltTy) : Type := (⟨s, e⟩ : BufTy).Contents (Elt F)

/-- The program's operations, in order. -/
abbrev ops : List (HloOp τ sig (Elt F)) :=
  [ binary main_arg0 main_arg0 main_v0 (mulf : Arr F S8192x128 .f32 → Arr F S8192x128 .f32 → Arr F S8192x128 .f32),
    nullary main_cst (constant S_ .f32 0x00000000#32),
    binary main_v0 main_cst main_v1 ((fun x v => Host.reduceAdd x v reducesTo_S8192x128_S8192_d1 h_S_) : Arr F S8192x128 .f32 → Arr F S_ .f32 → Arr F S8192 .f32),
    unary main_v1 main_v2 (broadcastInDim S8192x1 ![0] bcast_S8192_S8192x1_0 : Arr F S8192 .f32 → Arr F S8192x1 .f32),
    unary main_v1 main_v3 (broadcastInDim S1x8192 ![1] bcast_S8192_S1x8192_1 : Arr F S8192 .f32 → Arr F S1x8192 .f32),
    unary main_v2 main_v4 (broadcastInDim S8192x8192 ![0, 1] bcast_S8192x1_S8192x8192_0_1 : Arr F S8192x1 .f32 → Arr F S8192x8192 .f32),
    unary main_v3 main_v5 (broadcastInDim S8192x8192 ![0, 1] bcast_S1x8192_S8192x8192_0_1 : Arr F S1x8192 .f32 → Arr F S8192x8192 .f32),
    binary main_v4 main_v5 main_v6 (addf : Arr F S8192x8192 .f32 → Arr F S8192x8192 .f32 → Arr F S8192x8192 .f32),
    unary main_arg0 main_v7 ((transpose S128x8192 [1, 0] · transposes_S8192x128_S128x8192_1_0) : Arr F S8192x128 .f32 → Arr F S128x8192 .f32),
    binary main_arg0 main_v7 main_v8 ((fun l r => Host.dotGeneral dot_S8192x128_S128x8192_S8192x8192_1_0_0_1_n_n none l r) : Arr F S8192x128 .f32 → Arr F S128x8192 .f32 → Arr F S8192x8192 .f32),
    nullary main_cst_0 (constant S_ .f32 0x40000000#32),
    unary main_cst_0 main_v9 (broadcastInDim S8192x8192 ![] bcast_S_S8192x8192 : Arr F S_ .f32 → Arr F S8192x8192 .f32),
    binary main_v9 main_v8 main_v10 (mulf : Arr F S8192x8192 .f32 → Arr F S8192x8192 .f32 → Arr F S8192x8192 .f32),
    binary main_v6 main_v10 main_v11 (subf : Arr F S8192x8192 .f32 → Arr F S8192x8192 .f32 → Arr F S8192x8192 .f32),
    nullary main_cst_1 (constant S_ .f32 0x00000000#32),
    unary main_cst_1 main_v12 (broadcastInDim S8192x8192 ![] bcast_S_S8192x8192 : Arr F S_ .f32 → Arr F S8192x8192 .f32),
    binary main_v11 main_v12 main_v13 (maximumf : Arr F S8192x8192 .f32 → Arr F S8192x8192 .f32 → Arr F S8192x8192 .f32),
    nullary main_cst_2 (constant S_ .f32 0x00000000#32),
    unary main_cst_2 main_v14 (broadcastInDim S8192x8192 ![] bcast_S_S8192x8192 : Arr F S_ .f32 → Arr F S8192x8192 .f32),
    binary main_v13 main_v14 main_v15 (cmpf .ogt : Arr F S8192x8192 .f32 → Arr F S8192x8192 .f32 → Arr F S8192x8192 .i1),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v15) (TRef.of (T := ⟨S8192x8192, .f32⟩) main_v13) (TRef.of (T := ⟨S8192x8192, .f32⟩) main_call0_v1) (TRef.of (T := ⟨S8192x8192, .f32⟩) main_v16) select,
    unary main_v16 main_v17 (Host.sqrt : Arr F S8192x8192 .f32 → Arr F S8192x8192 .f32),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v17) (TRef.of (T := ⟨S8192x8192, .f32⟩) main_call1_v1) (TRef.of (T := ⟨S8192x8192, .f32⟩) main_v18) select,
    unary main_arg1 main_v19 (broadcastInDim S8192x1 ![0] bcast_S8192_S8192x1_0 : Arr F S8192 .i32 → Arr F S8192x1 .i32),
    unary main_arg1 main_v20 (broadcastInDim S1x8192 ![1] bcast_S8192_S1x8192_1 : Arr F S8192 .i32 → Arr F S1x8192 .i32),
    unary main_v19 main_v21 (broadcastInDim S8192x8192 ![0, 1] bcast_S8192x1_S8192x8192_0_1 : Arr F S8192x1 .i32 → Arr F S8192x8192 .i32),
    unary main_v20 main_v22 (broadcastInDim S8192x8192 ![0, 1] bcast_S1x8192_S8192x8192_0_1 : Arr F S1x8192 .i32 → Arr F S8192x8192 .i32),
    binary main_v21 main_v22 main_v23 (cmpi .eq : Arr F S8192x8192 .i32 → Arr F S8192x8192 .i32 → Arr F S8192x8192 .i1),
    nullary main_cst_5 (constant S_ .f32 0xFF800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v23) (TRef.of (T := ⟨S8192x8192, .f32⟩) main_v18) (TRef.of (T := ⟨S8192x8192, .f32⟩) main_call2_v1) (TRef.of (T := ⟨S8192x8192, .f32⟩) main_v24) select,
    nullary main_cst_6 (constant S_ .f32 0xFF800000#32),
    binary main_v24 main_cst_6 main_v25 ((fun x v => Host.reduce FloatOps.maximumf x v reducesTo_S8192x8192_S8192_d1 h_S_) : Arr F S8192x8192 .f32 → Arr F S_ .f32 → Arr F S8192 .f32),
    nullary main_cst_7 (constant S_ .f32 0x7F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v23) (TRef.of (T := ⟨S8192x8192, .f32⟩) main_call3_v1) (TRef.of (T := ⟨S8192x8192, .f32⟩) main_v18) (TRef.of (T := ⟨S8192x8192, .f32⟩) main_v26) select,
    nullary main_cst_8 (constant S_ .f32 0x7F800000#32),
    binary main_v26 main_cst_8 main_v27 ((fun x v => Host.reduce FloatOps.minimumf x v reducesTo_S8192x8192_S8192_d1 h_S_) : Arr F S8192x8192 .f32 → Arr F S_ .f32 → Arr F S8192 .f32),
    binary main_v25 main_v27 main_v28 (subf : Arr F S8192 .f32 → Arr F S8192 .f32 → Arr F S8192 .f32),
    nullary main_cst_9 (constant S_ .f32 0x3E99999A#32),
    unary main_cst_9 main_v29 (broadcastInDim S8192 ![] bcast_S_S8192 : Arr F S_ .f32 → Arr F S8192 .f32),
    binary main_v28 main_v29 main_v30 (addf : Arr F S8192 .f32 → Arr F S8192 .f32 → Arr F S8192 .f32),
    TRef.nullary (TRef.of (T := ⟨S_, .f32⟩) main_call4_cst) (constant S_ .f32 0x00000000#32),
    TRef.unary (TRef.of (T := ⟨S_, .f32⟩) main_call4_cst) (TRef.of (T := ⟨S8192, .f32⟩) main_call4_v0) (broadcastInDim S8192 ![] bcast_S_S8192),
    TRef.binary (TRef.of (T := ⟨S8192, .f32⟩) main_v30) (TRef.of (T := ⟨S8192, .f32⟩) main_call4_v0) (TRef.of (T := ⟨S8192, .f32⟩) main_v31) maximumf,
    nullary main_cst_10 (constant S_ .f32 0x00000000#32),
    binary main_v31 main_cst_10 main_v32 ((fun x v => Host.reduceAdd x v reducesTo_S8192_S_d0 h_S_) : Arr F S8192 .f32 → Arr F S_ .f32 → Arr F S_ .f32),
    nullary main_cst_11 (constant S_ .f32 0x46000000#32),
    binary main_v32 main_cst_11 main_v33 (Host.divf : Arr F S_ .f32 → Arr F S_ .f32 → Arr F S_ .f32) ]

set_option maxRecDepth 8192 in
/-- The program is the line of its operations: the called functions' bodies unfolded at their calls, both sides are one
    chain of steps once the sequencing is re-associated. -/
theorem main_eq (c : Dev nD) : main (F := F) c = seq ops := by
  simp only [main, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the program only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

set_option maxRecDepth 8192 in
/-- No operation writes the first argument. -/
theorem arg0_kept (V : Valuation τ sig (Elt F)) :
    after ops V (Proc.devRef .tc main_arg0) = V (Proc.devRef .tc main_arg0) := by
  after_results_simp

set_option maxRecDepth 8192 in
/-- No operation writes the second argument. -/
theorem arg1_kept (V : Valuation τ sig (Elt F)) :
    after ops V (Proc.devRef .tc main_arg1) = V (Proc.devRef .tc main_arg1) := by
  after_results_simp

set_option maxRecDepth 8192 in
/-- On every device, from any memory with zero counters: every weakly fair execution of the program terminates with the
    result buffer at the fold of the operations over the launch contents and the arguments unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = after ops (launchContents m c) (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v33,
      (h c main_arg0).trans (arg0_kept (launchContents m c)),
      (h c main_arg1).trans (arg1_kept (launchContents m c))⟩)
    (run_seq scopedRefs_eq scopedSems_eq defs main (fun _ => ops) main_eq (fun _ => ops_sub) m ρ)

end Cert.RefRun

end
-- ==== Proof.KBase.lean ====
/-
  The frame of the batch-hard triplet kernel, first part: what every grid point's run is stated over.

  @main is nine host operations (the cast of the features, their squared norms, four reshapes), the kernel region over the
  8 × 8 grid of 1024 × 1024 tiles, and four more host operations (the sum of the rows' losses and its division by 8192).
  Here: the buffers' contents when the region is entered (`V`: the host operations before it applied to the launch
  memory); each input window's block at a grid point read off those contents (`iblk`), which is what that window's
  staging buffer holds at every point whether the pipeline fetched it there or kept it; the two conditions of the body —
  "first column block" (the running maximum and minimum are reset) and "last column block" (the row block's losses are
  written) — decided over the 64 points; and where the output window is idle.
-/
import proofs.«100007_j26680336843539_2_alg».proof.Proof.Gen.Kernel.Launch
import proofs.«100007_j26680336843539_2_alg».proof.Proof.Gen.Kernel.Skeleton
import proofs.«100007_j26680336843539_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the nine host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or kept from the point before
    (one statement per input window: the block's shape is read off the window's literal number). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block": the running maximum and minimum are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last column block": the row block's losses are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt_in : ∀ (w : Fin 7), w.val < 6 → ∀ i : grid0.Coords, cfg0.idle w i = false := by
  intro w hw i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Away from the last column block nothing is stored into the output window and it is not written back. -/
theorem idleAt_6 : ∀ t : Fin cfg0.N, ¬cond0_1 (grid0.coords t) → cfg0.idle 6 (grid0.coords t) = true := by decide +kernel
theorem noFlush_6 : ∀ t : Fin cfg0.N, ¬cond0_1 (grid0.coords t) → (cfg0.win 6).flush t = false := by decide +kernel
theorem liveAt_6 : ∀ t : Fin cfg0.N, cond0_1 (grid0.coords t) → cfg0.idle 6 (grid0.coords t) = false := by decide +kernel

/-! ## The staging and scratch memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The two scratch operands: the running maximum and the running minimum, kept from one point to the next. -/
abbrev scM0 : Memref sig .tc .vmem S1024x1 .f32 := Memref.whole cc0_scratch0
abbrev scM1 : Memref sig .tc .vmem S1024x1 .f32 := Memref.whole cc0_scratch1
/-- Views through which contents are stated. -/
abbrev VO6 : View sig .tc .vmem S1024x1 .f32 := (Memref.whole cc0_stg6_0 : Memref sig .tc .vmem S1024x1 .f32).view
abbrev VS0 : View sig .tc .vmem S1024x1 .f32 := scM0.view
abbrev VS1 : View sig .tc .vmem S1024x1 .f32 := scM1.view

/-- The region's invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; rfl

end Cert.Kernel.Hand

end
-- ==== Proof.KRunA.lean ====
/-
  The kernel body at a point of the FIRST column block (and not the last): the running maximum is reset to −∞ and the
  running minimum to +∞, then this block's row maxima and minima are folded in; nothing is stored into the output window.
  The body's run on whole staging buffers, the pieces each scratch ends with found by the run itself.
-/
import proofs.«100007_j26680336843539_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) :
    Σ' (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRunB.lean ====
/-
  The kernel body at a point that is neither the first nor the last column block: this block's row maxima and minima are
  folded into the running maximum and minimum the point before left; nothing is stored into the output window.
-/
import proofs.«100007_j26680336843539_2_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    Σ' (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRunC.lean ====
/-
  The kernel body at a point of the LAST column block (and not the first): the block's row maxima and minima are folded in,
  and the row block's losses — from the row's squared norm and the finished maximum and minimum — are stored into the
  output window.
-/
import proofs.«100007_j26680336843539_2_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__triplet_kernel_eq_skeleton]; unfold cc0__triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Hand

end
-- ==== Proof.KData.lean ====
/-
  The frame of the batch-hard triplet kernel, second part: the proof data of its one pipeline and the body obligation.

  The two scratch operands carry a running maximum and a running minimum along a row block's eight column blocks; the
  output window is stored only at the last of them. What the output's staging buffer and the two scratches hold after
  each of the 64 points is defined by recursion on the point (`outsAt`): at a first column block from nothing, elsewhere
  from what the point before left in the scratches. The region's invariant carries the scratches at those contents, and
  the body obligation is the case's run at the point's buffers. Windows 0 and 1 stage the same array (the features, once
  as the row block and once as the column block): each holds HALF of it.
-/
import proofs.«100007_j26680336843539_2_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing consults: the output window's staging buffer at a point that stores nothing into it. -/
def junk6 : Vec F S1024x1 .f32 := VO6.read (Elt F) VO6.junk

theorem coverA0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).1 S1024x1.size (by sl_kernel_rfl) y
def outA0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) : Vec F S1024x1 .f32 :=
  VS0.read (Elt F) (VS0.writes (Elt F) VS0.junk (kernelRun_A c i arg2 harg2 arg3 harg3 arg4 harg4 arg5 harg5 arg6 harg6 arg7 harg7 arg8 harg8 arg9 harg9 arg10 harg10 hc0 hc1 x0 x1 x2 x3 x4 x5).1)

theorem coverA1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).2.1 S1024x1.size (by sl_kernel_rfl) y
def outA1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) : Vec F S1024x1 .f32 :=
  VS1.read (Elt F) (VS1.writes (Elt F) VS1.junk (kernelRun_A c i arg2 harg2 arg3 harg3 arg4 harg4 arg5 harg5 arg6 harg6 arg7 harg7 arg8 harg8 arg9 harg9 arg10 harg10 hc0 hc1 x0 x1 x2 x3 x4 x5).2.1)

theorem coverB0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y
def outB0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 arg10 harg10 hc0 hc1 x0 x1 x2 x3 x4 x5 xs0 xs1).1)

theorem coverB1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y
def outB1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS1.read (Elt F) (VS1.writes (Elt F) VS1.junk (kernelRun_B c i arg2 harg2 arg3 harg3 arg4 harg4 arg5 harg5 arg6 harg6 arg7 harg7 arg8 harg8 arg9 harg9 arg10 harg10 hc0 hc1 x0 x1 x2 x3 x4 x5 xs0 xs1).2.1)

theorem coverC6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y
def outC6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VO6.read (Elt F) (VO6.writes (Elt F) VO6.junk (kernelRun_C c i arg2 harg2 arg3 harg3 arg4 harg4 arg5 harg5 arg6 harg6 arg7 harg7 arg8 harg8 arg9 harg9 arg10 harg10 hc0 hc1 x0 x1 x2 x3 x4 x5 xs0 xs1).1)

theorem coverC0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y
def outC0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 arg10 harg10 hc0 hc1 x0 x1 x2 x3 x4 x5 xs0 xs1).2.1)

theorem coverC1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y
def outC1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .f32) (x5 : Vec F S1x1024 .f32) (xs0 : Vec F S1024x1 .f32) (xs1 : Vec F S1024x1 .f32) : Vec F S1024x1 .f32 :=
  VS1.read (Elt F) (VS1.writes (Elt F) VS1.junk (kernelRun_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output and the scratches hold after each point -/

/-- After the body at position `n`: the output window's staging buffer, the running maximum, the running minimum. -/
def outsAt (c : Dev nD) : (n : ℕ) → n < cfg0.N → Vec F S1024x1 .f32 × Vec F S1024x1 .f32 × Vec F S1024x1 .f32
  | 0, hn => (junk6, outA0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM0 (Memref.isWhole_whole _) scM1 (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), outA1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM0 (Memref.isWhole_whole _) scM1 (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      (junk6, outA0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), outA1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (outC6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outC0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outC1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (junk6, outB0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, outB1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (junk6, outA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcond0_0 t).mpr h0) (fun h => h1 ((hcond0_1 t).mp h)) (iblk m c 0 t) (iblk m c 1 t) (iblk m c 2 t) (iblk m c 3 t) (iblk m c 4 t) (iblk m c 5 t), outA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (junk6, outB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC6 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outC0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, outC1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scratch at anything; afterwards the two scratches at what the point before
    left in them; and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block and the output's at `outsAt`;
    the invariant `PhiS`; nothing owed; the shared feature array held half by its row-block window and half by its
    column-block window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.Kernel.Hand

end
-- ==== Proof.KBody.lean ====
/-
  The frame of the batch-hard triplet kernel, third part: the body obligation at a generic grid point.

  The point's position modulo 8 says which case it is in — the first column block, the last, or one between — and the
  case's run applies: the invariant hands the body the two scratches (at anything at the first column block, at what the
  point before left elsewhere) and takes them back at this point's contents; the input windows' buffers hold their blocks
  and are handed back as found; the output window's buffer is handed back untouched except at the last column block.
-/
import proofs.«100007_j26680336843539_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [liveAt_in 0 (by decide) (grid0.coords t)], after0]
    rw [show (dats m 0 c).leavesExact 1 t = owns (c : Thread nD τ) (ms1 t) fullShare ((dats m 0 c).after 1 t) from by
      unfold Dat.leavesExact; rw [liveAt_in 1 (by decide) (grid0.coords t)], after1]
    rw [show (dats m 0 c).leavesExact 2 t = owns (c : Thread nD τ) (ms2 t) fullShare ((dats m 0 c).after 2 t) from by
      unfold Dat.leavesExact; rw [liveAt_in 2 (by decide) (grid0.coords t)], after2]
    rw [show (dats m 0 c).leavesExact 3 t = owns (c : Thread nD τ) (ms3 t) fullShare ((dats m 0 c).after 3 t) from by
      unfold Dat.leavesExact; rw [liveAt_in 3 (by decide) (grid0.coords t)], after3]
    rw [show (dats m 0 c).leavesExact 4 t = owns (c : Thread nD τ) (ms4 t) fullShare ((dats m 0 c).after 4 t) from by
      unfold Dat.leavesExact; rw [liveAt_in 4 (by decide) (grid0.coords t)], after4]
    rw [show (dats m 0 c).leavesExact 5 t = owns (c : Thread nD τ) (ms5 t) fullShare ((dats m 0 c).after 5 t) from by
      unfold Dat.leavesExact; rw [liveAt_in 5 (by decide) (grid0.coords t)], after5]
    rw [Dat.leavesExact_idle (dats m 0 c) 6 t (idleAt_6 t (fun h => h1 ((hcond0_1 t).mp h))) (noFlush_6 t (fun h => h1 ((hcond0_1 t).mp h)))]
    rw [outsAt_A m c t h0 h1]
    unfold outA0 outA1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA0 c _ _ _ _ _ _ _ _ _ _ _ _ _ _ _ _ _ _ _ _ _ _ _ _ _ _ _)
          · unfold owns; iexists _; isplitr
            swap; · iexact HS1
            ipureintro; exact View.read_writes_of_cover _ _ _ _ _ (coverA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA0 c _ _ _ _ _ _ _ _ _ _ _ _ _ _ _ _ _ _ _ _ _ _ _ _ _ _ _)
          · unfold owns; iexists _; isplitr
            swap; · iexact HS1
            ipureintro; exact View.read_writes_of_cover _ _ _ _ _ (coverA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [PhiS_castSucc m c t, PhiS_pos m c _ _ hz]
      rw [show (dats m 0 c).leavesExact 0 t = owns (c : Thread nD τ) (ms0 t) fullShare ((dats m 0 c).after 0 t) from by
        unfold Dat.leavesExact; rw [liveAt_in 0 (by decide) (grid0.coords t)], after0]
      rw [show (dats m 0 c).leavesExact 1 t = owns (c : Thread nD τ) (ms1 t) fullShare ((dats m 0 c).after 1 t) from by
        unfold Dat.leavesExact; rw [liveAt_in 1 (by decide) (grid0.coords t)], after1]
      rw [show (dats m 0 c).leavesExact 2 t = owns (c : Thread nD τ) (ms2 t) fullShare ((dats m 0 c).after 2 t) from by
        unfold Dat.leavesExact; rw [liveAt_in 2 (by decide) (grid0.coords t)], after2]
      rw [show (dats m 0 c).leavesExact 3 t = owns (c : Thread nD τ) (ms3 t) fullShare ((dats m 0 c).after 3 t) from by
        unfold Dat.leavesExact; rw [liveAt_in 3 (by decide) (grid0.coords t)], after3]
      rw [show (dats m 0 c).leavesExact 4 t = owns (c : Thread nD τ) (ms4 t) fullShare ((dats m 0 c).after 4 t) from by
        unfold Dat.leavesExact; rw [liveAt_in 4 (by decide) (grid0.coords t)], after4]
      rw [show (dats m 0 c).leavesExact 5 t = owns (c : Thread nD τ) (ms5 t) fullShare ((dats m 0 c).after 5 t) from by
        unfold Dat.leavesExact; rw [liveAt_in 5 (by decide) (grid0.coords t)], after5]
      rw [show (dats m 0 c).leavesExact 6 t = owns (c : Thread nD τ) (ms6 t) fullShare ((dats m 0 c).after 6 t) from by
        unfold Dat.leavesExact; rw [liveAt_6 t ((hcond0_1 t).mpr h1)], after6]
      rw [outsAt_C m c t h0 h1]
      unfold outC6 outC0 outC1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverC0 c _ _ _ _ _ _ _ _ _ _ _ _ _ _ _ _ _ _ _ _ _ _ _ _ _ _ _ _ _)
          · unfold owns; iexists _; isplitr
            swap; · iexact HS1
            ipureintro; exact View.read_writes_of_cover _ _ _ _ _ (coverC1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC6 c _ _ _ _ _ _ _ _ _ _ _ _ _ _ _ _ _ _ _ _ _ _ _ _ _ _ _ _ _)
    · rw [PhiS_castSucc m c t, PhiS_pos m c _ _ hz]
      rw [show (dats m 0 c).leavesExact 0 t = owns (c : Thread nD τ) (ms0 t) fullShare ((dats m 0 c).after 0 t) from by
        unfold Dat.leavesExact; rw [liveAt_in 0 (by decide) (grid0.coords t)], after0]
      rw [show (dats m 0 c).leavesExact 1 t = owns (c : Thread nD τ) (ms1 t) fullShare ((dats m 0 c).after 1 t) from by
        unfold Dat.leavesExact; rw [liveAt_in 1 (by decide) (grid0.coords t)], after1]
      rw [show (dats m 0 c).leavesExact 2 t = owns (c : Thread nD τ) (ms2 t) fullShare ((dats m 0 c).after 2 t) from by
        unfold Dat.leavesExact; rw [liveAt_in 2 (by decide) (grid0.coords t)], after2]
      rw [show (dats m 0 c).leavesExact 3 t = owns (c : Thread nD τ) (ms3 t) fullShare ((dats m 0 c).after 3 t) from by
        unfold Dat.leavesExact; rw [liveAt_in 3 (by decide) (grid0.coords t)], after3]
      rw [show (dats m 0 c).leavesExact 4 t = owns (c : Thread nD τ) (ms4 t) fullShare ((dats m 0 c).after 4 t) from by
        unfold Dat.leavesExact; rw [liveAt_in 4 (by decide) (grid0.coords t)], after4]
      rw [show (dats m 0 c).leavesExact 5 t = owns (c : Thread nD τ) (ms5 t) fullShare ((dats m 0 c).after 5 t) from by
        unfold Dat.leavesExact; rw [liveAt_in 5 (by decide) (grid0.coords t)], after5]
      rw [Dat.leavesExact_idle (dats m 0 c) 6 t (idleAt_6 t (fun h => h1 ((hcond0_1 t).mp h))) (noFlush_6 t (fun h => h1 ((hcond0_1 t).mp h)))]
      rw [outsAt_B m c t h0 h1]
      unfold outB0 outB1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB0 c _ _ _ _ _ _ _ _ _ _ _ _ _ _ _ _ _ _ _ _ _ _ _ _ _ _ _ _ _)
          · unfold owns; iexists _; isplitr
            swap; · iexact HS1
            ipureintro; exact View.read_writes_of_cover _ _ _ _ _ (coverB1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratches back at contents no longer named. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.Kernel.Hand

end
-- ==== Proof.KArrays.lean ====
/-
  The frame of the batch-hard triplet kernel: the windows' arrays as whole buffers and as the pipeline holds them.

  Windows 0 and 1 stage ONE array, the features cast to bf16, once by row block and once by column block; both only
  read it. The launch splits that array's full share into the two halves the windows hold, and joins them when the
  region is left.
-/
import proofs.«100007_j26680336843539_2_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img_arr : (Finset.univ.image (Pipeline.arrRef spec0) : Finset (Ref sig .tc)) = [main_v0, main_v4, main_v5, main_v6, main_v7, main_v8].toFinset := by decide

/-- The distinct buffers behind the windows' arrays, one by one. -/
theorem arrBufs_eq (c : Dev nD) (Fv : (b : Ref sig .tc) → Buf (Elt F) ((c : Thread nD τ).loc b)) :
    (Pipeline.arrBufs spec0 c Fv : sProp 𝕄)
      = iprop((((c : Thread nD τ).loc main_v0) ↦{fullShare} Fv main_v0) ∗ (((c : Thread nD τ).loc main_v4) ↦{fullShare} Fv main_v4) ∗ (((c : Thread nD τ).loc main_v5) ↦{fullShare} Fv main_v5) ∗ (((c : Thread nD τ).loc main_v6) ↦{fullShare} Fv main_v6) ∗ (((c : Thread nD τ).loc main_v7) ↦{fullShare} Fv main_v7) ∗ (((c : Thread nD τ).loc main_v8) ↦{fullShare} Fv main_v8)) := by
  unfold Pipeline.arrBufs
  exact bigSep_eq_bigSepL_of_eq [main_v0, main_v4, main_v5, main_v6, main_v7, main_v8] img_arr (by decide) _

/-- The pipeline's arrays, window by window: the feature array at its two halves, the others whole. -/
theorem arrays_eq (c : Dev nD) (Fv : (b : Ref sig .tc) → Buf (Elt F) ((c : Thread nD τ).loc b)) :
    ((dats m 0 c).arrays (fun w => Fv (Pipeline.arrRef spec0 w)) : sProp 𝕄)
      = iprop((((c : Thread nD τ).loc main_v0) ↦{fullShare.left} Fv main_v0) ∗ (((c : Thread nD τ).loc main_v0) ↦{fullShare.right} Fv main_v0) ∗ (((c : Thread nD τ).loc main_v4) ↦{fullShare} Fv main_v4) ∗ (((c : Thread nD τ).loc main_v5) ↦{fullShare} Fv main_v5) ∗ (((c : Thread nD τ).loc main_v6) ↦{fullShare} Fv main_v6) ∗ (((c : Thread nD τ).loc main_v7) ↦{fullShare} Fv main_v7) ∗ (((c : Thread nD τ).loc main_v8) ↦{fullShare} Fv main_v8)) := by
  unfold Dat.arrays
  rw [bigSep_W0]
  have hset : ∀ w : Fin 7, (cfg0.win w).arr.view.set = Finset.univ := fun w => (arr_whole0 w).set_eq_univ
  have q0 : (dats m 0 c).share 0 = fullShare.left := by unfold Dat.share; dsimp only [dats]; rfl
  have q1 : (dats m 0 c).share 1 = fullShare.right := by unfold Dat.share; dsimp only [dats]; rfl
  have q2 : (dats m 0 c).share 2 = fullShare := by unfold Dat.share; dsimp only [dats]; rfl
  have q3 : (dats m 0 c).share 3 = fullShare := by unfold Dat.share; dsimp only [dats]; rfl
  have q4 : (dats m 0 c).share 4 = fullShare := by unfold Dat.share; dsimp only [dats]; rfl
  have q5 : (dats m 0 c).share 5 = fullShare := by unfold Dat.share; dsimp only [dats]; rfl
  have q6 : (dats m 0 c).share 6 = fullShare := by unfold Dat.share; rfl
  rw [q0, q1, q2, q3, q4, q5, q6]
  simp only [hset]
  simp only [View.set_whole]
  try rfl

/-- Whole buffers split among the windows. -/
theorem arr_split (c : Dev nD) (Fv : (b : Ref sig .tc) → Buf (Elt F) ((c : Thread nD τ).loc b)) :
    (Pipeline.arrBufs spec0 c Fv : sProp 𝕄) ⊢ (dats m 0 c).arrays (fun w => Fv (Pipeline.arrRef spec0 w)) := by
  rw [arrBufs_eq, arrays_eq]
  iintro ⟨H0, H4, H5, H6, H7, H8⟩
  icases (pointsTo_share (PosShare.mem_left_op_right fullShare)).1 $$ H0 with ⟨Ha, Hb⟩
  isplitl [Ha]; · iexact Ha
  isplitl [Hb]; · iexact Hb
  isplitl [H4]; · iexact H4
  isplitl [H5]; · iexact H5
  isplitl [H6]; · iexact H6
  isplitl [H7]; · iexact H7
  iexact H8

/-- The windows' shares joined into whole buffers. -/
theorem arr_merge (c : Dev nD) (Fv : (b : Ref sig .tc) → Buf (Elt F) ((c : Thread nD τ).loc b)) :
    ((dats m 0 c).arrays (fun w => Fv (Pipeline.arrRef spec0 w)) : sProp 𝕄) ⊢ Pipeline.arrBufs spec0 c Fv := by
  rw [arrBufs_eq, arrays_eq]
  iintro ⟨Ha, Hb, H4, H5, H6, H7, H8⟩
  isplitl [Ha Hb]
  · iapply (pointsTo_share (PosShare.mem_left_op_right fullShare)).2
    isplitl [Ha]; · iexact Ha
    iexact Hb
  isplitl [H4]; · iexact H4
  isplitl [H5]; · iexact H5
  isplitl [H6]; · iexact H6
  isplitl [H7]; · iexact H7
  iexact H8

end Cert.Kernel.Hand

end
-- ==== Proof.KTail.lean ====
/-
  The frame of the batch-hard triplet kernel: the buffers when the region is left, and the four host operations after it.

  When the region is left every input array is as the region found it and the output array is what the pipeline wrote
  back. The two halves of the feature array are joined, the four operations — the sum of the rows' losses and its division
  by the number of rows — run on the core's whole unscoped buffers, and the arrays are split among the windows again.
-/
import proofs.«100007_j26680336843539_2_alg».proof.Proof.KArrays

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left, and after @main -/

/-- The output array as the pipeline's write-backs leave it. -/
def outArr (c : Dev nD) : (main_v8 : Ref sig .tc).ty.Contents (Elt F) := (dats m 0 c).arrAt 6 cfg0.N

/-- Core `c`'s buffer contents when the region is left: the entry contents, the output array at what was written back. -/
abbrev W1 (c : Dev nD) : Valuation τ sig (Elt F) := StableHlo.after [StableHlo.nullary main_v8 (outArr m c)] (V0 m c)
/-- And after the four host operations that follow the region. -/
abbrev Vf (c : Dev nD) : Valuation τ sig (Elt F) := StableHlo.after (List.flatten [hostOps1]) (W1 m c)
abbrev W1r (c : Dev nD) (b : Ref sig .tc) : Buf (Elt F) ((c : Thread nD τ).loc b) := W1 m c (Proc.devRef .tc b)
abbrev Vfr (c : Dev nD) (b : Ref sig .tc) : Buf (Elt F) ((c : Thread nD τ).loc b) := Vf m c (Proc.devRef .tc b)

/-- Every window but the last is an input, and its array is not the output array. -/
theorem win_in : ∀ w : Fin cfg0.W, w ≠ 6 → (cfg0.win w).isOut = false ∧ Pipeline.arrRef spec0 w ≠ main_v8 := by decide
theorem arr_not_tail : ∀ w : Fin cfg0.W, Pipeline.arrRef spec0 w ∉ [main_cst_0, main_v9, main_cst_1, main_v10] := by decide

/-- Every window's array when the region is left: an input's as it was found, the output's as written back. -/
theorem arrAt_exit (c : Dev nD) (w : Fin cfg0.W) : (dats m 0 c).arrAt w cfg0.N = W1r m c (Pipeline.arrRef spec0 w) := by
  by_cases hw : w = 6
  · subst hw
    show outArr m c = (StableHlo.nullary main_v8 (outArr m c)).result (V0 m c) (Proc.devRef .tc main_v8)
    rw [StableHlo.nullary_result]
  · obtain ⟨hin, hne⟩ := win_in w hw
    rw [(dats m 0 c).arrAt_in w hin, A_eq]
    exact (StableHlo.nullary_result_ne _ _ _ _ hne).symm

/-- The four later operations write none of the arrays. -/
theorem Vf_arr (c : Dev nD) (w : Fin cfg0.W) : Vfr m c (Pipeline.arrRef spec0 w) = W1r m c (Pipeline.arrRef spec0 w) := by
  refine StableHlo.after_of_writes_sub (W := [main_cst_0, main_v9, main_cst_1, main_v10]) _ _ ?_ (arr_not_tail w)
  simp only [List.flatten_cons, List.flatten_nil, List.append_nil, hostOps1, List.Forall, StableHlo.nullary_writes, StableHlo.binary_writes]
  decide

/-- A buffer that is no window's array is as the region found it. -/
theorem rest_exit (c : Dev nD) : (Pipeline.unscopedRest spec0 c (V m c) : sProp 𝕄) = Pipeline.unscopedRest spec0 c (W1r m c) := by
  unfold Pipeline.unscopedRest
  refine bigSep_congr fun b hb => ?_
  have hb8 : b ≠ main_v8 := fun e => (Finset.mem_sdiff.mp hb).2 (Finset.mem_image.mpr ⟨6, Finset.mem_univ _, e.symm⟩)
  rw [show W1r m c b = V m c b from StableHlo.nullary_result_ne _ _ _ _ hb8]

theorem hostOps1_sub' : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- THE LINES AFTER THE REGION: the two halves of the feature array are joined, the four operations run on the core's
    whole unscoped buffers, and the arrays are split among the windows again. -/
theorem htail (c : Dev nD) (Q' : PUnit → sProp 𝕄) :
    iprop((iprop((dats m 0 c).arrays ((dats m 0 c).arrAt · cfg0.N) ∗ Pipeline.unscopedRest spec0 c (Vfr m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hA : (fun w => (dats m 0 c).arrAt w cfg0.N) = fun w => W1r m c (Pipeline.arrRef spec0 w) := funext (arrAt_exit m c)
  have hA' : (fun w => (dats m 0 c).arrAt w cfg0.N) = fun w => Vfr m c (Pipeline.arrRef spec0 w) :=
    funext fun w => (arrAt_exit m c w).trans (Vf_arr m c w).symm
  have hWm : iprop((dats m 0 c).arrays ((dats m 0 c).arrAt · cfg0.N) ∗ Pipeline.unscopedRest spec0 c (V m c))
      ⊢ (StableHlo.held (c.tc : Thread nD τ) (Pipeline.ucRefs τ sig) (W1 m c) : sProp 𝕄) := by
    rw [← Pipeline.unscopedBufs_held (Ix := Unit) (Name := ℕ) (U := UR sig nD τ) (Lvl := ℕ) c (W1 m c),
      Pipeline.unscopedBufs_split₀ cfgs 0 winFacts₀0.arr_unscoped c (W1r m c), hA, rest_exit]
    exact sep_mono (arr_merge m c (W1r m c)) .rfl
  have hWs : (StableHlo.held (c.tc : Thread nD τ) (Pipeline.ucRefs τ sig) (Vf m c) : sProp 𝕄)
      ⊢ iprop((dats m 0 c).arrays ((dats m 0 c).arrAt · cfg0.N) ∗ Pipeline.unscopedRest spec0 c (Vfr m c)) := by
    rw [← Pipeline.unscopedBufs_held (Ix := Unit) (Name := ℕ) (U := UR sig nD τ) (Lvl := ℕ) c (Vf m c),
      Pipeline.unscopedBufs_split₀ cfgs 0 winFacts₀0.arr_unscoped c (Vfr m c), hA']
    exact sep_mono (arr_split m c (Vfr m c)) .rfl
  rw [← List.append_nil ([hostOps1].map StableHlo.seq)]
  refine (sep_mono .rfl (sep_mono .rfl hWm)).trans ?_
  iintro ⟨Hk, Hb⟩
  iapply (Pipeline.wp_seqs_then (fun q => (cfgs q).toPCfg (Val := Elt F)) defs₀ Variants.none c (Pipeline.ucRefs τ sig) [] [hostOps1] hostOps1_sub' hostOps1_fresh' (W1 m c)) $$ Hb
  iintro Hb
  rw [Pipeline.chain_nil, wp_pure]
  imodintro
  iapply Hk
  icases Hb with ⟨-, H⟩
  iapply hWs
  iexact H

end Cert.Kernel.Hand

end
-- ==== Proof.KLaunch.lean ====
/-
  The frame of the batch-hard triplet kernel: the launch and the run of @main.

  The launch hands the pipeline its windows' arrays — the feature array split between windows 0 and 1 —, the region's
  invariant takes the two scratch buffers, and the four host operations after the region run as the continuation. The
  run's post names each window's array at what the pipeline's write-backs left and every other unscoped buffer at what
  the later operations leave.
-/
import proofs.«100007_j26680336843539_2_alg».proof.Proof.KTail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates without a fault; at the end each window's array is at what the
    pipeline's write-backs left, and every other unscoped buffer at what the four later operations leave. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ (∀ b ∈ Pipeline.restRefs sig spec0, r.2.mem ((c.tc : Thread nD τ).loc b) = Vfr m c b)) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arr_split m c (V m c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vfr m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Vfr m c b)
    (hY := fun c s' => by
      iintro ⟨-, HU, HSI⟩
      unfold Pipeline.unscopedRest
      imodintro
      iapply (pointsTo_read_all (Pipeline.restRefs sig spec0) (fun b => (c.tc : Thread nD τ).loc b) (Vfr m c) s')
      isplitl [HU] <;> iassumption)
    (hQ := fun s h c => ⟨(h c).1, (h c).2.2⟩)

/-! ## Read at the arguments and at the result -/

/-- No operation of @main writes the feature argument: it ends as it was launched. -/
theorem Vfr_arg0 (c : Dev nD) : Vfr m c main_arg0 = m ((c : Thread nD τ).loc main_arg0) := by
  show StableHlo.after (List.flatten [hostOps1]) (StableHlo.after [StableHlo.nullary main_v8 (outArr m c)]
    (StableHlo.after (List.flatten [hostOps0]) (fun b => m (c, b)))) (Proc.devRef .tc main_arg0) = _
  simp only [hostOps0, hostOps1, List.flatten_cons, List.flatten_nil, List.append_nil]
  after_results
  try rfl
/-- Nor the label argument. -/
theorem Vfr_arg1 (c : Dev nD) : Vfr m c main_arg1 = m ((c : Thread nD τ).loc main_arg1) := by
  show StableHlo.after (List.flatten [hostOps1]) (StableHlo.after [StableHlo.nullary main_v8 (outArr m c)]
    (StableHlo.after (List.flatten [hostOps0]) (fun b => m (c, b)))) (Proc.devRef .tc main_arg1) = _
  simp only [hostOps0, hostOps1, List.flatten_cons, List.flatten_nil, List.append_nil]
  after_results
  try rfl

/-- The result: the sum of the output array's entries from zero, divided by the number of rows. -/
theorem Vfr_v10 (c : Dev nD) : Vfr m c main_v10
    = Host.divf (Host.reduceAdd (outArr m c) (constant S_ .f32 0x00000000#32) reducesTo_S8192x1_S_d0_1 h_S_) (constant S_ .f32 0x46000000#32) := by
  show StableHlo.after (List.flatten [hostOps1]) (StableHlo.after [StableHlo.nullary main_v8 (outArr m c)]
    (StableHlo.after (List.flatten [hostOps0]) (fun b => m (c, b)))) (Proc.devRef .tc main_v10) = _
  simp only [hostOps0, hostOps1, List.flatten_cons, List.flatten_nil, List.append_nil]
  after_results
  try rfl

theorem arg0_rest : main_arg0 ∈ Pipeline.restRefs sig spec0 := by decide
theorem arg1_rest : main_arg1 ∈ Pipeline.restRefs sig spec0 := by decide
theorem v10_rest : main_v10 ∈ Pipeline.restRefs sig spec0 := by decide

/-- THE FRAME, at any `F`: @main runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (Vfr_arg0 m c), ((h c).2 main_arg1 arg1_rest).trans (Vfr_arg1 m c)⟩)
    (run_main m ρ)

/-- The run with the result named: the mean of the output array as the pipeline left it; the arguments unchanged. -/
theorem run_value : θ_run defs (onTc (τ := τ) (main (F := F))) ⟨m, fun _ => 0, ρ⟩ (fun r => ∀ c : Dev nD,
      r.2.mem ((c.tc : Thread nD τ).loc main_v10)
        = Host.divf (Host.reduceAdd (outArr m c) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v10 v10_rest).trans (Vfr_v10 m c),
      ((h c).2 main_arg0 arg0_rest).trans (Vfr_arg0 m c), ((h c).2 main_arg1 arg1_rest).trans (Vfr_arg1 m c)⟩)
    (run_main m ρ)

end Cert.Kernel.Hand

end
-- ==== Proof.RefStages.lean ====
/-
  The reference program's values as arrays.

  sqArr x  is the array of the rows' squared norms,  dotArr x  the product of the features with their transpose,
  clampArr x  the clamped expansion,  distArr x  its guarded square root (the distance matrix),  maskArr t  the same-label
  test,  posArr x t  and  negArr x t  the two row reductions of the masked distances,  rowArr x t  the rows' clamped
  margins and  lossArr x t  their mean. Each definition applies the array operations the program applies, in the
  program's order, for any float values. The lemmas here only open one definition at one index.
-/
import proofs.«100007_j26680336843539_2_alg».proof.Proof.Gen.ReferenceIdeal
import Idealize.ShloMosaic.Lib.Pipeline.Value
import Idealize.ShloMosaic.Lib.ValueIdx

noncomputable section

namespace Cert.RefSpec

open Cert.ReferenceIdeal Cert.ReferenceIdeal.Gen Idealize.ShloMosaic Idealize.ShloMosaic.TcCoe Idealize.SL.Sem
  Idealize.ShloMosaic.StableHlo Idealize.ShloMosaic.ValueIdx

/-- The arrays of a shape and an element type. -/
abbrev Arr (F : FTy → Type) (s : Shape) (e : EltTy) : Type := (⟨s, e⟩ : BufTy).Contents (Elt F)

/-! ## The broadcasts -/

section Broadcasts

variable {α : Type}

/-- A vector broadcast along the columns: entry (r, c) is entry r. -/
abbrev bcCol (y : S8192.Idx → α) : S8192x8192.Idx → α :=
  broadcastInDim (s := S8192x1) S8192x8192 ![0, 1] bcast_S8192x1_S8192x8192_0_1 (broadcastInDim (s := S8192) S8192x1 ![0] bcast_S8192_S8192x1_0 y)
/-- A vector broadcast along the rows: entry (r, c) is entry c. -/
abbrev bcRow (y : S8192.Idx → α) : S8192x8192.Idx → α :=
  broadcastInDim (s := S1x8192) S8192x8192 ![0, 1] bcast_S1x8192_S8192x8192_0_1 (broadcastInDim (s := S8192) S1x8192 ![1] bcast_S8192_S1x8192_1 y)
/-- A scalar broadcast to the matrix, and to the vector. -/
abbrev bcMat (y : S_.Idx → α) : S8192x8192.Idx → α := broadcastInDim (s := S_) S8192x8192 ![] bcast_S_S8192x8192 y
abbrev bcVec (y : S_.Idx → α) : S8192.Idx → α := broadcastInDim (s := S_) S8192 ![] bcast_S_S8192 y

end Broadcasts

/-! ## The stages -/

section Stages

variable {F : FTy → Type} [FloatOps F]

/-- A scalar literal. -/
abbrev lit (w : BitVec 32) : Arr F S_ .f32 := constant S_ .f32 w

/-- The squared norms; the product with the transpose; the clamped expansion; where it is above zero; the distances. -/
def sqArr (x : Arr F S8192x128 .f32) : Arr F S8192 .f32 :=
  Host.reduceAdd (mulf x x) (lit 0x00000000#32) reducesTo_S8192x128_S8192_d1 h_S_
def dotArr (x : Arr F S8192x128 .f32) : Arr F S8192x8192 .f32 :=
  Host.dotGeneral dot_S8192x128_S128x8192_S8192x8192_1_0_0_1_n_n none x (transpose S128x8192 [1, 0] x transposes_S8192x128_S128x8192_1_0)
def clampArr (x : Arr F S8192x128 .f32) : Arr F S8192x8192 .f32 :=
  maximumf (subf (addf (bcCol (sqArr x)) (bcRow (sqArr x))) (mulf (bcMat (lit 0x40000000#32)) (dotArr x)))
    (bcMat (lit 0x00000000#32))
def aboveArr (x : Arr F S8192x128 .f32) : Arr F S8192x8192 .i1 := cmpf .ogt (clampArr x) (bcMat (lit 0x00000000#32))
def distArr (x : Arr F S8192x128 .f32) : Arr F S8192x8192 .f32 :=
  select (aboveArr x) (Host.sqrt (select (aboveArr x) (clampArr x) (bcMat (id (lit 0x3F800000#32)))))
    (bcMat (id (lit 0x00000000#32)))
/-- The same-label test; the distances to the same label, −∞ elsewhere; the distances to another label, +∞ elsewhere. -/
def maskArr (t : Arr F S8192 .i32) : Arr F S8192x8192 .i1 := cmpi .eq (bcCol t) (bcRow t)
def posMasked (x : Arr F S8192x128 .f32) (t : Arr F S8192 .i32) : Arr F S8192x8192 .f32 :=
  select (maskArr t) (distArr x) (bcMat (id (lit 0xFF800000#32)))
def negMasked (x : Arr F S8192x128 .f32) (t : Arr F S8192 .i32) : Arr F S8192x8192 .f32 :=
  select (maskArr t) (bcMat (id (lit 0x7F800000#32))) (distArr x)
/-- The two row reductions; the rows' clamped margins; their mean. -/
def posArr (x : Arr F S8192x128 .f32) (t : Arr F S8192 .i32) : Arr F S8192 .f32 :=
  Host.reduce FloatOps.maximumf (posMasked x t) (lit 0xFF800000#32) reducesTo_S8192x8192_S8192_d1 h_S_
def negArr (x : Arr F S8192x128 .f32) (t : Arr F S8192 .i32) : Arr F S8192 .f32 :=
  Host.reduce FloatOps.minimumf (negMasked x t) (lit 0x7F800000#32) reducesTo_S8192x8192_S8192_d1 h_S_
def rowArr (x : Arr F S8192x128 .f32) (t : Arr F S8192 .i32) : Arr F S8192 .f32 :=
  maximumf (addf (subf (posArr x t) (negArr x t)) (bcVec (lit 0x3E99999A#32))) (bcVec (lit 0x00000000#32))
def lossArr (x : Arr F S8192x128 .f32) (t : Arr F S8192 .i32) : Arr F S_ .f32 :=
  Host.divf (Host.reduceAdd (rowArr x t) (lit 0x00000000#32) reducesTo_S8192_S_d0 h_S_) (lit 0x46000000#32)

end Stages

/-! ## One definition opened at one index -/

section Unfold

variable {F : FTy → Type} [FloatOps F]

theorem clampArr_at (x : Arr F S8192x128 .f32) (i : S8192x8192.Idx) :
    clampArr x i = FloatOps.maximumf (FloatOps.subf (FloatOps.addf (bcCol (sqArr x) i) (bcRow (sqArr x) i))
      (FloatOps.mulf (bcMat (lit (F := F) 0x40000000#32) i) (dotArr x i))) (bcMat (lit (F := F) 0x00000000#32) i) := rfl
theorem aboveArr_at (x : Arr F S8192x128 .f32) (i : S8192x8192.Idx) :
    aboveArr x i = FloatOps.cmpf .ogt (clampArr x i) (bcMat (lit (F := F) 0x00000000#32) i) := rfl
theorem distArr_at (x : Arr F S8192x128 .f32) (i : S8192x8192.Idx) :
    distArr x i = Scalar.select (aboveArr x i)
      (FloatOps.hostUnary .sqrt (Scalar.select (aboveArr x i) (clampArr x i) (bcMat (lit (F := F) 0x3F800000#32) i)))
      (bcMat (lit (F := F) 0x00000000#32) i) := rfl
theorem maskArr_at (t : Arr F S8192 .i32) (i : S8192x8192.Idx) :
    maskArr t i = IntOp.cmpi .eq (bcCol t i) (bcRow t i) := rfl
theorem posMasked_at (x : Arr F S8192x128 .f32) (t : Arr F S8192 .i32) (i : S8192x8192.Idx) :
    posMasked x t i = Scalar.select (maskArr t i) (distArr x i) (bcMat (lit (F := F) 0xFF800000#32) i) := rfl
theorem negMasked_at (x : Arr F S8192x128 .f32) (t : Arr F S8192 .i32) (i : S8192x8192.Idx) :
    negMasked x t i = Scalar.select (maskArr t i) (bcMat (lit (F := F) 0x7F800000#32) i) (distArr x i) := rfl
theorem rowArr_at (x : Arr F S8192x128 .f32) (t : Arr F S8192 .i32) (i : S8192.Idx) :
    rowArr x t i = FloatOps.maximumf (FloatOps.addf (FloatOps.subf (posArr x t i) (negArr x t i))
      (bcVec (lit (F := F) 0x3E99999A#32) i)) (bcVec (lit (F := F) 0x00000000#32) i) := rfl
theorem lossArr_at (x : Arr F S8192x128 .f32) (t : Arr F S8192 .i32) (i : S_.Idx) :
    lossArr x t i = FloatOps.hostDivf (Host.reduceAdd (rowArr x t) (lit (F := F) 0x00000000#32) reducesTo_S8192_S_d0 h_S_ i)
      (lit (F := F) 0x46000000#32 i) := rfl

end Unfold

end Cert.RefSpec

end
-- ==== Proof.RefValue.lean ====
/-
  The fold of the reference program's operations at the result buffer.

  The 57 operations are taken in six consecutive groups. After each group the buffers still to be read hold the arrays
  of the previous module: after the first, the clamped expansion; after the second, the distance matrix; after the third,
  the same-label test; after the fourth and the fifth, the two row reductions; after the sixth, the mean of the clamped
  margins. Within a group each buffer's contents are the group's operations composed over the contents before the group;
  a buffer no operation of a group writes keeps its contents. The fold over the whole line is the fold over the groups in
  order.
-/
import proofs.«100007_j26680336843539_2_alg».proof.Proof.RefRun
import proofs.«100007_j26680336843539_2_alg».proof.Proof.RefStages

noncomputable section

namespace Cert.RefRun

open Cert.ReferenceIdeal Cert.ReferenceIdeal.Gen Idealize.ShloMosaic Idealize.ShloMosaic.TcCoe Idealize.SL.Sem
  Idealize.ShloMosaic.StableHlo Cert.RefSpec

variable {F : FTy → Type} [FloatOps F]

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The groups -/

abbrev g1 : List (HloOp τ sig (Elt F)) :=
  [ binary main_arg0 main_arg0 main_v0 (mulf : Arr F S8192x128 .f32 → Arr F S8192x128 .f32 → Arr F S8192x128 .f32),
    nullary main_cst (constant S_ .f32 0x00000000#32),
    binary main_v0 main_cst main_v1 ((fun x v => Host.reduceAdd x v reducesTo_S8192x128_S8192_d1 h_S_) : Arr F S8192x128 .f32 → Arr F S_ .f32 → Arr F S8192 .f32),
    unary main_v1 main_v2 (broadcastInDim S8192x1 ![0] bcast_S8192_S8192x1_0 : Arr F S8192 .f32 → Arr F S8192x1 .f32),
    unary main_v1 main_v3 (broadcastInDim S1x8192 ![1] bcast_S8192_S1x8192_1 : Arr F S8192 .f32 → Arr F S1x8192 .f32),
    unary main_v2 main_v4 (broadcastInDim S8192x8192 ![0, 1] bcast_S8192x1_S8192x8192_0_1 : Arr F S8192x1 .f32 → Arr F S8192x8192 .f32),
    unary main_v3 main_v5 (broadcastInDim S8192x8192 ![0, 1] bcast_S1x8192_S8192x8192_0_1 : Arr F S1x8192 .f32 → Arr F S8192x8192 .f32),
    binary main_v4 main_v5 main_v6 (addf : Arr F S8192x8192 .f32 → Arr F S8192x8192 .f32 → Arr F S8192x8192 .f32),
    unary main_arg0 main_v7 ((transpose S128x8192 [1, 0] · transposes_S8192x128_S128x8192_1_0) : Arr F S8192x128 .f32 → Arr F S128x8192 .f32),
    binary main_arg0 main_v7 main_v8 ((fun l r => Host.dotGeneral dot_S8192x128_S128x8192_S8192x8192_1_0_0_1_n_n none l r) : Arr F S8192x128 .f32 → Arr F S128x8192 .f32 → Arr F S8192x8192 .f32),
    nullary main_cst_0 (constant S_ .f32 0x40000000#32),
    unary main_cst_0 main_v9 (broadcastInDim S8192x8192 ![] bcast_S_S8192x8192 : Arr F S_ .f32 → Arr F S8192x8192 .f32),
    binary main_v9 main_v8 main_v10 (mulf : Arr F S8192x8192 .f32 → Arr F S8192x8192 .f32 → Arr F S8192x8192 .f32),
    binary main_v6 main_v10 main_v11 (subf : Arr F S8192x8192 .f32 → Arr F S8192x8192 .f32 → Arr F S8192x8192 .f32),
    nullary main_cst_1 (constant S_ .f32 0x00000000#32),
    unary main_cst_1 main_v12 (broadcastInDim S8192x8192 ![] bcast_S_S8192x8192 : Arr F S_ .f32 → Arr F S8192x8192 .f32),
    binary main_v11 main_v12 main_v13 (maximumf : Arr F S8192x8192 .f32 → Arr F S8192x8192 .f32 → Arr F S8192x8192 .f32) ]

abbrev g2 : List (HloOp τ sig (Elt F)) :=
  [ nullary main_cst_2 (constant S_ .f32 0x00000000#32),
    unary main_cst_2 main_v14 (broadcastInDim S8192x8192 ![] bcast_S_S8192x8192 : Arr F S_ .f32 → Arr F S8192x8192 .f32),
    binary main_v13 main_v14 main_v15 (cmpf .ogt : Arr F S8192x8192 .f32 → Arr F S8192x8192 .f32 → Arr F S8192x8192 .i1),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v15) (TRef.of (T := ⟨S8192x8192, .f32⟩) main_v13) (TRef.of (T := ⟨S8192x8192, .f32⟩) main_call0_v1) (TRef.of (T := ⟨S8192x8192, .f32⟩) main_v16) select,
    unary main_v16 main_v17 (Host.sqrt : Arr F S8192x8192 .f32 → Arr F S8192x8192 .f32),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v17) (TRef.of (T := ⟨S8192x8192, .f32⟩) main_call1_v1) (TRef.of (T := ⟨S8192x8192, .f32⟩) main_v18) select ]

abbrev g3 : List (HloOp τ sig (Elt F)) :=
  [ unary main_arg1 main_v19 (broadcastInDim S8192x1 ![0] bcast_S8192_S8192x1_0 : Arr F S8192 .i32 → Arr F S8192x1 .i32),
    unary main_arg1 main_v20 (broadcastInDim S1x8192 ![1] bcast_S8192_S1x8192_1 : Arr F S8192 .i32 → Arr F S1x8192 .i32),
    unary main_v19 main_v21 (broadcastInDim S8192x8192 ![0, 1] bcast_S8192x1_S8192x8192_0_1 : Arr F S8192x1 .i32 → Arr F S8192x8192 .i32),
    unary main_v20 main_v22 (broadcastInDim S8192x8192 ![0, 1] bcast_S1x8192_S8192x8192_0_1 : Arr F S1x8192 .i32 → Arr F S8192x8192 .i32),
    binary main_v21 main_v22 main_v23 (cmpi .eq : Arr F S8192x8192 .i32 → Arr F S8192x8192 .i32 → Arr F S8192x8192 .i1) ]

abbrev g4 : List (HloOp τ sig (Elt F)) :=
  [ nullary main_cst_5 (constant S_ .f32 0xFF800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v23) (TRef.of (T := ⟨S8192x8192, .f32⟩) main_v18) (TRef.of (T := ⟨S8192x8192, .f32⟩) main_call2_v1) (TRef.of (T := ⟨S8192x8192, .f32⟩) main_v24) select,
    nullary main_cst_6 (constant S_ .f32 0xFF800000#32),
    binary main_v24 main_cst_6 main_v25 ((fun x v => Host.reduce FloatOps.maximumf x v reducesTo_S8192x8192_S8192_d1 h_S_) : Arr F S8192x8192 .f32 → Arr F S_ .f32 → Arr F S8192 .f32) ]

abbrev g5 : List (HloOp τ sig (Elt F)) :=
  [ nullary main_cst_7 (constant S_ .f32 0x7F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v23) (TRef.of (T := ⟨S8192x8192, .f32⟩) main_call3_v1) (TRef.of (T := ⟨S8192x8192, .f32⟩) main_v18) (TRef.of (T := ⟨S8192x8192, .f32⟩) main_v26) select,
    nullary main_cst_8 (constant S_ .f32 0x7F800000#32),
    binary main_v26 main_cst_8 main_v27 ((fun x v => Host.reduce FloatOps.minimumf x v reducesTo_S8192x8192_S8192_d1 h_S_) : Arr F S8192x8192 .f32 → Arr F S_ .f32 → Arr F S8192 .f32) ]

abbrev g6 : List (HloOp τ sig (Elt F)) :=
  [ binary main_v25 main_v27 main_v28 (subf : Arr F S8192 .f32 → Arr F S8192 .f32 → Arr F S8192 .f32),
    nullary main_cst_9 (constant S_ .f32 0x3E99999A#32),
    unary main_cst_9 main_v29 (broadcastInDim S8192 ![] bcast_S_S8192 : Arr F S_ .f32 → Arr F S8192 .f32),
    binary main_v28 main_v29 main_v30 (addf : Arr F S8192 .f32 → Arr F S8192 .f32 → Arr F S8192 .f32),
    TRef.nullary (TRef.of (T := ⟨S_, .f32⟩) main_call4_cst) (constant S_ .f32 0x00000000#32),
    TRef.unary (TRef.of (T := ⟨S_, .f32⟩) main_call4_cst) (TRef.of (T := ⟨S8192, .f32⟩) main_call4_v0) (broadcastInDim S8192 ![] bcast_S_S8192),
    TRef.binary (TRef.of (T := ⟨S8192, .f32⟩) main_v30) (TRef.of (T := ⟨S8192, .f32⟩) main_call4_v0) (TRef.of (T := ⟨S8192, .f32⟩) main_v31) maximumf,
    nullary main_cst_10 (constant S_ .f32 0x00000000#32),
    binary main_v31 main_cst_10 main_v32 ((fun x v => Host.reduceAdd x v reducesTo_S8192_S_d0 h_S_) : Arr F S8192 .f32 → Arr F S_ .f32 → Arr F S_ .f32),
    nullary main_cst_11 (constant S_ .f32 0x46000000#32),
    binary main_v32 main_cst_11 main_v33 (Host.divf : Arr F S_ .f32 → Arr F S_ .f32 → Arr F S_ .f32) ]

/-- The line is the groups in order. -/
theorem ops_groups : (ops : List (HloOp τ sig (Elt F))) = g1 ++ (g2 ++ (g3 ++ (g4 ++ (g5 ++ g6)))) := rfl

/-! ## Each group -/

set_option maxRecDepth 8192 in
theorem g1_v13 (W : Valuation τ sig (Elt F)) :
    after g1 W (Proc.devRef .tc main_v13) = clampArr (W (Proc.devRef .tc main_arg0)) := by
  after_results_simp
  rfl
set_option maxRecDepth 8192 in
theorem g1_arg1 (W : Valuation τ sig (Elt F)) : after g1 W (Proc.devRef .tc main_arg1) = W (Proc.devRef .tc main_arg1) := by
  after_results_simp

set_option maxRecDepth 8192 in
theorem g2_v18 (W : Valuation τ sig (Elt F)) (x : Arr F S8192x128 .f32) (h : W (Proc.devRef .tc main_v13) = clampArr x) :
    after g2 W (Proc.devRef .tc main_v18) = distArr x := by
  after_results_simp
  rw [h]
  rfl
set_option maxRecDepth 8192 in
theorem g2_arg1 (W : Valuation τ sig (Elt F)) : after g2 W (Proc.devRef .tc main_arg1) = W (Proc.devRef .tc main_arg1) := by
  after_results_simp

set_option maxRecDepth 8192 in
theorem g3_v23 (W : Valuation τ sig (Elt F)) : after g3 W (Proc.devRef .tc main_v23) = maskArr (W (Proc.devRef .tc main_arg1)) := by
  after_results_simp
  rfl
set_option maxRecDepth 8192 in
theorem g3_v18 (W : Valuation τ sig (Elt F)) : after g3 W (Proc.devRef .tc main_v18) = W (Proc.devRef .tc main_v18) := by
  after_results_simp

set_option maxRecDepth 8192 in
theorem g4_v25 (W : Valuation τ sig (Elt F)) (x : Arr F S8192x128 .f32) (t : Arr F S8192 .i32)
    (h18 : W (Proc.devRef .tc main_v18) = distArr x) (h23 : W (Proc.devRef .tc main_v23) = maskArr t) :
    after g4 W (Proc.devRef .tc main_v25) = posArr x t := by
  after_results_simp
  rw [h18, h23]
  rfl
set_option maxRecDepth 8192 in
theorem g4_v18 (W : Valuation τ sig (Elt F)) : after g4 W (Proc.devRef .tc main_v18) = W (Proc.devRef .tc main_v18) := by
  after_results_simp
set_option maxRecDepth 8192 in
theorem g4_v23 (W : Valuation τ sig (Elt F)) : after g4 W (Proc.devRef .tc main_v23) = W (Proc.devRef .tc main_v23) := by
  after_results_simp

set_option maxRecDepth 8192 in
theorem g5_v27 (W : Valuation τ sig (Elt F)) (x : Arr F S8192x128 .f32) (t : Arr F S8192 .i32)
    (h18 : W (Proc.devRef .tc main_v18) = distArr x) (h23 : W (Proc.devRef .tc main_v23) = maskArr t) :
    after g5 W (Proc.devRef .tc main_v27) = negArr x t := by
  after_results_simp
  rw [h18, h23]
  rfl
set_option maxRecDepth 8192 in
theorem g5_v25 (W : Valuation τ sig (Elt F)) : after g5 W (Proc.devRef .tc main_v25) = W (Proc.devRef .tc main_v25) := by
  after_results_simp

set_option maxRecDepth 8192 in
theorem g6_v33 (W : Valuation τ sig (Elt F)) (x : Arr F S8192x128 .f32) (t : Arr F S8192 .i32)
    (h25 : W (Proc.devRef .tc main_v25) = posArr x t) (h27 : W (Proc.devRef .tc main_v27) = negArr x t) :
    after g6 W (Proc.devRef .tc main_v33) = lossArr x t := by
  after_results_simp
  rw [h25, h27]
  rfl

/-! ## The whole line -/

/-- After the whole line the result buffer holds the mean of the clamped margins, as the array of the previous module,
    of the two arguments' contents before it. -/
theorem after_ops (V : Valuation τ sig (Elt F)) :
    after ops V (Proc.devRef .tc main_v33) = lossArr (V (Proc.devRef .tc main_arg0)) (V (Proc.devRef .tc main_arg1)) := by
  rw [ops_groups]
  simp only [after_append]
  have a13 := g1_v13 V
  have a1 := g1_arg1 V
  have b18 := g2_v18 (after g1 V) _ a13
  have b1 := (g2_arg1 (after g1 V)).trans a1
  have c23 := (g3_v23 (after g2 (after g1 V))).trans (congrArg maskArr b1)
  have c18 := (g3_v18 (after g2 (after g1 V))).trans b18
  have d25 := g4_v25 (after g3 (after g2 (after g1 V))) _ _ c18 c23
  have d18 := (g4_v18 (after g3 (after g2 (after g1 V)))).trans c18
  have d23 := (g4_v23 (after g3 (after g2 (after g1 V)))).trans c23
  have e27 := g5_v27 (after g4 (after g3 (after g2 (after g1 V)))) _ _ d18 d23
  have e25 := (g5_v25 (after g4 (after g3 (after g2 (after g1 V))))).trans d25
  exact g6_v33 _ _ _ e25 e27

end Cert.RefRun

end
-- ==== Proof.RefPoint.lean ====
/-
  Pointwise facts on the extended reals used to read the reference program.

  * The guarded square root  where (d > 0) (√(where (d > 0) d 1)) 0  is  √d  for every  d ≥ 0:
    above zero both selections take their first branch; at zero the outer selection returns 0 = √0.
  * The words 0xFF800000 and 0x7F800000 denote −∞ and +∞; the word 0 denotes 0.
  * A selection on an integer equality test is an if-then-else on the equality.
  * The maximum and minimum operations are the lattice's sup and inf, so a fold of the maximum from −∞ over all
    indices is the supremum over them, and a fold of the minimum from +∞ the infimum.
  * A sum over the one-coordinate index set is the sum over the coordinate.
-/
import Idealize.ShloMosaic.PureOps.Ideal
import Idealize.ShloMosaic.PureOps.Ideal.Laws
import Idealize.ShloMosaic.Lib.ValueIdx

noncomputable section

namespace Cert.RefSpec

open Idealize.ShloMosaic

/-- The word of −∞. -/
theorem ofBits_negInf : Ideal.ofBits .f32 0xFF800000#32 = (⊥ : EReal) := by simp [Ideal.ofBits, Ideal.ieee]
/-- The word of +∞. -/
theorem ofBits_posInf : Ideal.ofBits .f32 0x7F800000#32 = (⊤ : EReal) := by simp [Ideal.ofBits, Ideal.ieee]

/-- The square root of zero is zero. -/
theorem sqrt_zero : Ideal.sqrt (0 : EReal) = 0 := by
  rw [← EReal.coe_zero, Ideal.sqrt_coe]; simp

/-- The guarded square root is the square root on the nonnegative extended reals. -/
theorem guarded_sqrt (d one : EReal) (hd : 0 ≤ d) :
    Scalar.select (Ideal.cmp .ogt d 0) (Ideal.sqrt (Scalar.select (Ideal.cmp .ogt d 0) d one)) (0 : EReal)
      = Ideal.sqrt d := by
  by_cases h : 0 < d
  · simp [Scalar.select, Ideal.cmp, h]
  · have h0 : d = 0 := le_antisymm (not_lt.mp h) hd
    subst h0
    simp [Scalar.select, Ideal.cmp, sqrt_zero]

/-- A selection on an integer equality test. -/
theorem select_cmpi_eq {α : Type} (a b : BitVec 32) (u v : α) :
    Scalar.select (IntOp.cmpi .eq a b) u v = if a = b then u else v := by
  by_cases h : a = b
  · subst h; simp [Scalar.select, IntOp.cmpi]
  · have hb : (a == b) = false := beq_eq_false_iff_ne.mpr h
    simp [Scalar.select, IntOp.cmpi, h, hb]

/-- The fold of the maximum from −∞ over all indices is the supremum. -/
theorem fold_max_bot {n : Nat} (f : Fin n → EReal) :
    (Finset.univ : Finset (Fin n)).fold (FloatOps.maximumf (F := Ideal) (φ := .f32)) (⊥ : EReal) f = Finset.univ.sup f := rfl

/-- The fold of the minimum from +∞ over all indices is the infimum. -/
theorem fold_min_top {n : Nat} (f : Fin n → EReal) :
    (Finset.univ : Finset (Fin n)).fold (FloatOps.minimumf (F := Ideal) (φ := .f32)) (⊤ : EReal) f = Finset.univ.inf f := rfl

/-- The one-coordinate index set is its coordinate's range. -/
def idxEquiv1 {n : Nat} : (⟨1, ![n]⟩ : Shape).Idx ≃ Fin n where
  toFun i := i 0
  invFun a := ValueIdx.ix1 a
  left_inv i := (ValueIdx.eq_ix1 i).symm
  right_inv _ := rfl

/-- A sum over the one-coordinate index set is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

end Cert.RefSpec

end
-- ==== Proof.RefArr.lean ====
/-
  The reference program's arrays read at an index, at the extended reals.

  Each reading lemma says what an array of the previous module holds at an index in terms of the specification: the
  squared norms, the inner products, the clamped expansion, the distances, the label test, the hardest positive and
  negative of a row, the row's loss, and at the end the mean.
-/
import proofs.«100007_j26680336843539_2_alg».proof.Proof.RefStages
import proofs.«100007_j26680336843539_2_alg».proof.Proof.Spec
import proofs.«100007_j26680336843539_2_alg».proof.Proof.RefPoint
import Idealize.ShloMosaic.PureOps.Ideal.Laws

noncomputable section

namespace Cert.RefSpec

open Cert.ReferenceIdeal Cert.ReferenceIdeal.Gen Idealize.ShloMosaic Idealize.ShloMosaic.TcCoe Idealize.SL.Sem
  Idealize.ShloMosaic.StableHlo Idealize.ShloMosaic.ValueIdx

/-- The features argument and the labels argument, at the extended reals. -/
abbrev XArr := Arr Ideal S8192x128 .f32
abbrev TArr := Arr Ideal S8192 .i32
/-- The features and the labels by coordinates. -/
abbrev feat (x : XArr) : Cert.Spec.Feat := fun r k => x (ix2 r k)
abbrev lab (t : TArr) : Cert.Spec.Lab := fun r => t (ix1 r)

/-! ## The broadcasts -/

section Broadcasts

variable {α : Type}

theorem bcCol_apply (y : S8192.Idx → α) (r c : Fin 8192) : bcCol y (ix2 r c) = y (ix1 r) :=
  (broadcastInDim_apply _ bcast_S8192x1_S8192x8192_0_1 _ (ix2 r c) (ix2 r (0 : Fin 1)) (fun a => match a with
      | ⟨0, _⟩ => by show r.val = if (8192 : Nat) = 1 then 0 else r.val; rw [if_neg (by decide)]
      | ⟨1, _⟩ => by show 0 = if (1 : Nat) = 1 then 0 else c.val; rw [if_pos rfl])).trans
    (broadcastInDim_apply _ bcast_S8192_S8192x1_0 y (ix2 r (0 : Fin 1)) (ix1 r) (fun a => match a with
      | ⟨0, _⟩ => by show r.val = if (8192 : Nat) = 1 then 0 else r.val; rw [if_neg (by decide)]))

theorem bcRow_apply (y : S8192.Idx → α) (r c : Fin 8192) : bcRow y (ix2 r c) = y (ix1 c) :=
  (broadcastInDim_apply _ bcast_S1x8192_S8192x8192_0_1 _ (ix2 r c) (ix2 (0 : Fin 1) c) (fun a => match a with
      | ⟨0, _⟩ => by show 0 = if (1 : Nat) = 1 then 0 else r.val; rw [if_pos rfl]
      | ⟨1, _⟩ => by show c.val = if (8192 : Nat) = 1 then 0 else c.val; rw [if_neg (by decide)])).trans
    (broadcastInDim_apply _ bcast_S8192_S1x8192_1 y (ix2 (0 : Fin 1) c) (ix1 c) (fun a => match a with
      | ⟨0, _⟩ => by show c.val = if (8192 : Nat) = 1 then 0 else c.val; rw [if_neg (by decide)]))

theorem bcMat_apply (y : S_.Idx → α) (i : S8192x8192.Idx) : bcMat y i = y ix0 :=
  broadcastInDim_apply _ bcast_S_S8192x8192 y i ix0 (fun a => a.elim0)

theorem bcVec_apply (y : S_.Idx → α) (i : S8192.Idx) : bcVec y i = y ix0 :=
  broadcastInDim_apply _ bcast_S_S8192 y i ix0 (fun a => a.elim0)

end Broadcasts

theorem lit_apply (w : BitVec 32) (i : S_.Idx) : lit (F := Ideal) w i = Ideal.ofBits .f32 w := rfl

/-! ## The squared norms -/

theorem reduces_feat : S8192x128.Reduces [1] S8192 := by decide

/-- Row r with feature k put back is (r, k). -/
theorem lift_feat (r : Fin 8192) (k : Fin (S8192x128.size 1)) :
    reduces_feat.lift (ix1 r) k = ix2 r (⟨k.val, k.isLt⟩ : Fin 128) := by
  funext a; apply Fin.ext
  match a with | ⟨0, _⟩ => rfl | ⟨1, _⟩ => rfl

theorem sqArr_apply (x : XArr) (r : Fin 8192) : sqArr (F := Ideal) x (ix1 r) = Cert.Spec.sq (feat x) r := by
  unfold sqArr
  simp only [Host.reduceAdd, Ideal.hostReduceAdd_def]
  rw [Ideal.hostReduceAdd_single reducesTo_S8192x128_S8192_d1 reduces_feat, lit_apply, Ideal.ofBits_zero_f32, zero_add]
  exact Finset.sum_congr rfl fun k _ => by rw [lift_feat]; rfl

/-! ## The product with the transpose -/

theorem dot_lhs0 (i : S8192x8192.Idx) (q : dot_S8192x128_S128x8192_S8192x8192_1_0_0_1_n_n.contr.Idx) : (dot_S8192x128_S128x8192_S8192x8192_1_0_0_1_n_n.lhsIdx i q 0).val = (i 0).val := by
  unfold DotDims.lhsIdx
  rw [dif_neg (show ¬(0 : Fin S8192x128.rank) ∈ dot_S8192x128_S128x8192_S8192x8192_1_0_0_1_n_n.lhsBatch by decide),
    dif_pos (show (0 : Fin S8192x128.rank) ∈ dot_S8192x128_S128x8192_S8192x8192_1_0_0_1_n_n.lhsNonContracting by decide)]
  rfl
theorem dot_lhs1 (i : S8192x8192.Idx) (q : dot_S8192x128_S128x8192_S8192x8192_1_0_0_1_n_n.contr.Idx) : (dot_S8192x128_S128x8192_S8192x8192_1_0_0_1_n_n.lhsIdx i q 1).val = (q ⟨0, by decide⟩).val :=
  dot_S8192x128_S128x8192_S8192x8192_1_0_0_1_n_n.lhsIdx_val_of_single rfl i q
theorem dot_rhs0 (i : S8192x8192.Idx) (q : dot_S8192x128_S128x8192_S8192x8192_1_0_0_1_n_n.contr.Idx) : (dot_S8192x128_S128x8192_S8192x8192_1_0_0_1_n_n.rhsIdx i q 0).val = (q ⟨0, by decide⟩).val :=
  dot_S8192x128_S128x8192_S8192x8192_1_0_0_1_n_n.rhsIdx_val_of_single rfl i q
theorem dot_rhs1 (i : S8192x8192.Idx) (q : dot_S8192x128_S128x8192_S8192x8192_1_0_0_1_n_n.contr.Idx) : (dot_S8192x128_S128x8192_S8192x8192_1_0_0_1_n_n.rhsIdx i q 1).val = (i 1).val := by
  unfold DotDims.rhsIdx
  rw [dif_neg (show ¬(1 : Fin S128x8192.rank) ∈ dot_S8192x128_S128x8192_S8192x8192_1_0_0_1_n_n.rhsBatch by decide),
    dif_pos (show (1 : Fin S128x8192.rank) ∈ dot_S8192x128_S128x8192_S8192x8192_1_0_0_1_n_n.rhsNonContracting by decide)]
  rfl

theorem dotArr_apply (x : XArr) (r c : Fin 8192) : dotArr (F := Ideal) x (ix2 r c) = Cert.Spec.dot (feat x) r c := by
  unfold dotArr
  simp only [Host.dotGeneral]
  rw [Ideal.dotGeneral_apply, ← Equiv.sum_comp (contrEquiv1 dot_S8192x128_S128x8192_S8192x8192_1_0_0_1_n_n 128 rfl rfl).symm]
  unfold Cert.Spec.dot
  refine Finset.sum_congr rfl fun k _ => ?_
  have hk := contrEquiv1_symm_val dot_S8192x128_S128x8192_S8192x8192_1_0_0_1_n_n 128 rfl rfl k
  have el : dot_S8192x128_S128x8192_S8192x8192_1_0_0_1_n_n.lhsIdx (ix2 r c) ((contrEquiv1 dot_S8192x128_S128x8192_S8192x8192_1_0_0_1_n_n 128 rfl rfl).symm k) = ix2 r k :=
    funext fun a => Fin.ext (by
      match a with
      | ⟨0, _⟩ => exact dot_lhs0 _ _
      | ⟨1, _⟩ => exact (dot_lhs1 _ _).trans hk)
  have er : dot_S8192x128_S128x8192_S8192x8192_1_0_0_1_n_n.rhsIdx (ix2 r c) ((contrEquiv1 dot_S8192x128_S128x8192_S8192x8192_1_0_0_1_n_n 128 rfl rfl).symm k) = ix2 k c :=
    funext fun a => Fin.ext (by
      match a with
      | ⟨0, _⟩ => exact (dot_rhs0 _ _).trans hk
      | ⟨1, _⟩ => exact dot_rhs1 _ _)
  rw [el, er, transpose_apply [1, 0] x transposes_S8192x128_S128x8192_1_0 (ix2 k c) (ix2 c k) (fun b => match b with
    | ⟨0, _⟩ => rfl
    | ⟨1, _⟩ => rfl)]

/-! ## The distance matrix -/

theorem clampArr_apply (x : XArr) (r c : Fin 8192) :
    clampArr (F := Ideal) x (ix2 r c)
      = max (Cert.Spec.sq (feat x) r + Cert.Spec.sq (feat x) c - Cert.Spec.two * Cert.Spec.dot (feat x) r c) 0 := by
  rw [clampArr_at, bcCol_apply, bcRow_apply, bcMat_apply, bcMat_apply, sqArr_apply, sqArr_apply, dotArr_apply, lit_apply, lit_apply]
  simp only [Ideal.maximumf_def, Ideal.subf_def, Ideal.addf_def, Ideal.mulf_def, Ideal.ofBits_zero_f32]
  rfl

theorem distArr_apply (x : XArr) (r c : Fin 8192) : distArr (F := Ideal) x (ix2 r c) = Cert.Spec.dist (feat x) r c := by
  rw [distArr_at, aboveArr_at, bcMat_apply, bcMat_apply, clampArr_apply, lit_apply, lit_apply]
  simp only [Ideal.cmpf_def, Ideal.hostUnary_sqrt_def, Ideal.ofBits_zero_f32]
  unfold Cert.Spec.dist
  exact guarded_sqrt _ _ (le_max_right _ _)

/-! ## The masked row reductions -/

theorem maskArr_apply (t : TArr) (r c : Fin 8192) :
    maskArr (F := Ideal) t (ix2 r c) = IntOp.cmpi .eq (lab t r) (lab t c) := by
  rw [maskArr_at, bcCol_apply, bcRow_apply]

theorem posMasked_apply (x : XArr) (t : TArr) (r c : Fin 8192) :
    posMasked (F := Ideal) x t (ix2 r c) = if lab t r = lab t c then Cert.Spec.dist (feat x) r c else ⊥ := by
  rw [posMasked_at, maskArr_apply, distArr_apply, bcMat_apply, lit_apply, ofBits_negInf]
  exact select_cmpi_eq _ _ _ _

theorem negMasked_apply (x : XArr) (t : TArr) (r c : Fin 8192) :
    negMasked (F := Ideal) x t (ix2 r c) = if lab t r = lab t c then ⊤ else Cert.Spec.dist (feat x) r c := by
  rw [negMasked_at, maskArr_apply, distArr_apply, bcMat_apply, lit_apply, ofBits_posInf]
  exact select_cmpi_eq _ _ _ _

theorem reduces_rows : S8192x8192.Reduces [1] S8192 := by decide

/-- Row r with column k put back is (r, k). -/
theorem lift_row (r : Fin 8192) (k : Fin (S8192x8192.size 1)) :
    reduces_rows.lift (ix1 r) k = ix2 r (⟨k.val, k.isLt⟩ : Fin 8192) := by
  funext a; apply Fin.ext
  match a with | ⟨0, _⟩ => rfl | ⟨1, _⟩ => rfl

theorem posArr_apply (x : XArr) (t : TArr) (r : Fin 8192) :
    posArr (F := Ideal) x t (ix1 r) = Cert.Spec.hardPos (feat x) (lab t) r := by
  unfold posArr
  rw [Host.reduce_eq_fold_single FloatOps.maximumf _ _ reducesTo_S8192x8192_S8192_d1 reduces_rows h_S_,
    lit_apply, ofBits_negInf]
  have hf : (posMasked (F := Ideal) x t ∘ reduces_rows.lift (ix1 r))
      = fun c : Fin 8192 => if lab t r = lab t c then Cert.Spec.dist (feat x) r c else ⊥ := by
    funext k
    show posMasked (F := Ideal) x t (reduces_rows.lift (ix1 r) k) = _
    rw [lift_row, posMasked_apply]
    rfl
  rw [hf]
  exact fold_max_bot _

theorem negArr_apply (x : XArr) (t : TArr) (r : Fin 8192) :
    negArr (F := Ideal) x t (ix1 r) = Cert.Spec.hardNeg (feat x) (lab t) r := by
  unfold negArr
  rw [Host.reduce_eq_fold_single FloatOps.minimumf _ _ reducesTo_S8192x8192_S8192_d1 reduces_rows h_S_,
    lit_apply, ofBits_posInf]
  have hf : (negMasked (F := Ideal) x t ∘ reduces_rows.lift (ix1 r))
      = fun c : Fin 8192 => if lab t r = lab t c then ⊤ else Cert.Spec.dist (feat x) r c := by
    funext k
    show negMasked (F := Ideal) x t (reduces_rows.lift (ix1 r) k) = _
    rw [lift_row, negMasked_apply]
    rfl
  rw [hf]
  exact fold_min_top _

/-! ## The mean of the clamped margins -/

theorem rowArr_apply (x : XArr) (t : TArr) (r : Fin 8192) :
    rowArr (F := Ideal) x t (ix1 r) = Cert.Spec.rowLoss (feat x) (lab t) r := by
  rw [rowArr_at, posArr_apply, negArr_apply, bcVec_apply, bcVec_apply, lit_apply, lit_apply]
  simp only [Ideal.maximumf_def, Ideal.addf_def, Ideal.subf_def, Ideal.ofBits_zero_f32]
  rfl

/-- The reference's result array holds the loss of the specification at its one index. -/
theorem lossArr_eq (x : XArr) (t : TArr) : lossArr (F := Ideal) x t = fun _ => Cert.Spec.loss (feat x) (lab t) := by
  funext i
  rw [lossArr_at]
  have hy : ∀ r : Fin 8192, rowArr (F := Ideal) x t (ix1 r) = Cert.Spec.rowLoss (feat x) (lab t) r := rowArr_apply x t
  generalize rowArr (F := Ideal) x t = y at hy ⊢
  simp only [Host.reduceAdd, Ideal.hostReduceAdd_def, Ideal.hostDivf_def]
  rw [Ideal.hostReduceAdd_total reducesTo_S8192_S_d0 (fun b => b.elim0), lit_apply, lit_apply, Ideal.ofBits_zero_f32, zero_add,
    sum_idx1, Finset.sum_congr rfl fun r _ => hy r]
  rfl

end Cert.RefSpec

end
-- ==== Proof.RefLoss.lean ====
/-
  The reference program's result is the loss of the specification.

  The fold of the program's operations leaves the result buffer at the array  lossArr  of the two arguments' contents
  (the fold taken group by group), and that array holds the loss of the specification at its one index (the arrays read
  at an index).
-/
import proofs.«100007_j26680336843539_2_alg».proof.Proof.RefValue
import proofs.«100007_j26680336843539_2_alg».proof.Proof.RefArr

noncomputable section

namespace Cert.RefRun

open Cert.ReferenceIdeal Cert.ReferenceIdeal.Gen Idealize.ShloMosaic Idealize.ShloMosaic.TcCoe Idealize.SL.Sem
  Idealize.ShloMosaic.StableHlo Cert.RefSpec

/-- At the extended reals, after the whole line the result buffer holds the loss of the specification of the two
    arguments' contents before it, at its one index. -/
theorem after_ops_loss (V : Valuation τ sig (Elt Ideal)) :
    after ops V (Proc.devRef .tc main_v33)
      = fun _ => Cert.Spec.loss (fun r k => (V (Proc.devRef .tc main_arg0) : XArr) (ValueIdx.ix2 r k))
          (fun r => (V (Proc.devRef .tc main_arg1) : TArr) (ValueIdx.ix1 r)) :=
  (after_ops V).trans (lossArr_eq _ _)

end Cert.RefRun

end
-- ==== Proof.lean ====
/-
  The certificate of the batch-hard triplet margin loss: a Pallas kernel over an 8 × 8 grid of 1024 × 1024 distance tiles
  against the plain jnp computation, as extended reals.

  Both programs compute, for 8192 rows x of 128 features with integer labels t, the mean over the rows r of
      max (hardPos r − hardNeg r + margin) 0,
  hardPos r the largest and hardNeg r the smallest distance √(max (|x r|² + |x c|² − 2·⟨x r, x c⟩) 0) from r to a row c of the
  same, respectively of another, label. The reference materialises the 8192 × 8192 distance matrix. The kernel keeps, per
  row block, a running maximum and a running minimum of  |x c|² − 2·⟨x r, x c⟩  over the column blocks in two scratch
  buffers and applies the addition of |x r|², the clamp and the square root once per row at the last column block: the map
  v ↦ √(max (|x r|² + v) 0) is monotone on the extended reals, so it commutes with the selections, and a row always carries
  its own label, so the maximum is over a set that is not empty. No operation rounds at the ideal instance (the kernel's
  bf16 cast of the features is the identity there), and no step needs the inputs to be finite.

  The frames (each program runs to its end without a fault and leaves its two arguments unchanged) are the kernel's
  pipeline run — its feature array staged by two windows at once, each holding half of it — and the reference's straight
  line of host operations; the ideal pass rewrote nothing, so the kernel's idealization is its own text.
-/
import proofs.«100007_j26680336843539_2_alg».proof.Defs
import proofs.«100007_j26680336843539_2_alg».proof.Proof.Gen.Kernel
import proofs.«100007_j26680336843539_2_alg».proof.Proof.Gen.KernelIdeal
import proofs.«100007_j26680336843539_2_alg».proof.Proof.Gen.ReferenceIdeal
import proofs.«100007_j26680336843539_2_alg».proof.Proof.Gen.Pre_finite_inputs
import proofs.«100007_j26680336843539_2_alg».proof.Proof.KILaunch
import proofs.«100007_j26680336843539_2_alg».proof.Proof.KIValueOut
import proofs.«100007_j26680336843539_2_alg».proof.Proof.RefRun
import proofs.«100007_j26680336843539_2_alg».proof.Proof.KLaunch
import proofs.«100007_j26680336843539_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : Cert.frame_Kernel := fun m ρ _ => Cert.Kernel.Hand.frame (F := Bits) m ρ
/-- So does its idealization, -/
theorem frame_ki : Cert.frame_KernelIdeal := fun m ρ _ => Cert.KernelIdeal.Hand.frame (F := Ideal) m ρ
/-- and the reference: its run with the result dropped. -/
theorem frame_ri : Cert.frame_ReferenceIdeal := fun m ρ _ =>
  (θ_run Cert.ReferenceIdeal.defs _ _).mono (fun _ h c => ⟨(h c).2.1, (h c).2.2⟩) (Cert.RefRun.run_raw (F := Ideal) m ρ)

/-- The ideal pass rewrote no operation. -/
theorem preserves : Cert.preserves_Kernel_KernelIdeal := trivial

/-- At the ideal instance both programs end with the mean of the rows' losses of the same features and labels. -/
theorem algebraic : Cert.algebraic_KernelIdeal_ReferenceIdeal := by
  intro m ρ m' ρ' _ hagree
  refine ⟨fun c => fun _ => Cert.Spec.loss (Cert.KernelIdeal.Hand.Xm m c) (Cert.KernelIdeal.Hand.Tm m c), ?_, ?_⟩
  · refine (θ_run Cert.KernelIdeal.defs _ _).mono (fun _ h c => ⟨(h c).1.trans ?_, (h c).2.1, (h c).2.2⟩)
      (Cert.KernelIdeal.Hand.run_value (F := Ideal) m ρ)
    rw [show Cert.KernelIdeal.Hand.outArr m c = Cert.KernelIdeal.Hand.lossCol m c from Cert.KernelIdeal.Hand.final6 m c]
    exact Cert.KernelIdeal.Hand.mean_lossCol m c
  · refine (θ_run Cert.ReferenceIdeal.defs _ _).mono (fun _ h c => ⟨(h c).1.trans ?_, (h c).2.1, (h c).2.2⟩)
      (Cert.RefRun.run_raw (F := Ideal) m' ρ')
    rw [Cert.RefRun.after_ops_loss]
    show (fun _ => Cert.Spec.loss
        (fun r k => (m' ((c.tc : Thread Cert.ReferenceIdeal.nD Cert.ReferenceIdeal.τ).loc Cert.ReferenceIdeal.main_arg0)) (ValueIdx.ix2 r k))
        (fun r => (m' ((c.tc : Thread Cert.ReferenceIdeal.nD Cert.ReferenceIdeal.τ).loc Cert.ReferenceIdeal.main_arg1)) (ValueIdx.ix1 r))) = _
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
